-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x512 : Shape := ⟨3, ![16, 4096, 512]⟩
abbrev S1536x512 : Shape := ⟨2, ![1536, 512]⟩
abbrev S512x512 : Shape := ⟨2, ![512, 512]⟩
abbrev S512 : Shape := ⟨1, ![512]⟩
abbrev S_ : Shape := ⟨0, ![]⟩

class Facts : Prop where
  bcast_S_S16x4096x512 : S_.BroadcastsInDim S16x4096x512 (![] : Fin 0 → Fin S16x4096x512.rank)
  reducesTo_S16x4096x512_S_d0_1_2 : S16x4096x512.ReducesTo [0, 1, 2] S_
  h_S_ : 0 < S_.numel
  bcast_S_S1536x512 : S_.BroadcastsInDim S1536x512 (![] : Fin 0 → Fin S1536x512.rank)
  reducesTo_S1536x512_S_d0_1 : S1536x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S16x4096x512 .f32) (main_arg1 : FVec F S1536x512 .f32) (main_arg2 : FVec F S512x512 .f32) (main_arg3 : FVec F S512 .f32) : IVec S_ 1 :=
  let main_v0 : FVec F S16x4096x512 .f32 := Host.absf main_arg0
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  let main_c : IVec S_ 1 := constantI S_ 1 1#1
  let main_v3 : IVec S_ 1 := (fun x v => Host.reduce IntOp.andi x v reducesTo_S16x4096x512_S_d0_1_2 h_S_) main_v2 main_c
  let main_v4 : FVec F S1536x512 .f32 := Host.absf main_arg1
  let main_cst_0 : FVec F S_ .f32 := constant S_ .f32 0x7F800000#32
  let main_v5 : FVec F S1536x512 .f32 := broadcastInDim S1536x512 ![] bcast_S_S1536x512 main_cst_0
  let main_v6 : IVec S1536x512 1 := cmpf .olt main_v4 main_v5
  let main_c_1 : IVec S_ 1 := constantI S_ 1 1#1
  let main_v7 : IVec S_ 1 := (fun x v => Host.reduce IntOp.andi x v reducesTo_S1536x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S16x4096x512 : Shape := ⟨3, ![16, 4096, 512]⟩
abbrev S1536x512 : Shape := ⟨2, ![1536, 512]⟩
abbrev S512x512 : Shape := ⟨2, ![512, 512]⟩
abbrev S512 : Shape := ⟨1, ![512]⟩
abbrev S1024x64x512 : Shape := ⟨3, ![1024, 64, 512]⟩
abbrev S512x1536 : Shape := ⟨2, ![512, 1536]⟩
abbrev S1x512 : Shape := ⟨2, ![1, 512]⟩
abbrev S16x64x512 : Shape := ⟨3, ![16, 64, 512]⟩
abbrev S1024x1536 : Shape := ⟨2, ![1024, 1536]⟩
abbrev S1024x512 : Shape := ⟨2, ![1024, 512]⟩
abbrev S1024x128 : Shape := ⟨2, ![1024, 128]⟩
abbrev S16x64x128 : Shape := ⟨3, ![16, 64, 128]⟩
abbrev S16x64x64 : Shape := ⟨3, ![16, 64, 64]⟩
abbrev S16x64 : Shape := ⟨2, ![16, 64]⟩
abbrev S16x64x1 : Shape := ⟨3, ![16, 64, 1]⟩

abbrev nBuf : Space → Nat
  | .hbm => 12
  | .vmem => 9
  | .smem => 0
  | _ => 0

abbrev bufTy : (tb : Table) → Fin (tcTables nBuf tb) → BufTy
  | .hbm, ⟨0, _⟩ => ⟨S16x4096x512, .f32⟩
  | .hbm, ⟨1, _⟩ => ⟨S1536x512, .f32⟩
  | .hbm, ⟨2, _⟩ => ⟨S512x512, .f32⟩
  | .hbm, ⟨3, _⟩ => ⟨S512, .f32⟩
  | .hbm, ⟨4, _⟩ => ⟨S1024x64x512, .f32⟩
  | .hbm, ⟨5, _⟩ => ⟨S512x1536, .f32⟩
  | .hbm, ⟨6, _⟩ => ⟨S512x1536, .bf16⟩
  | .hbm, ⟨7, _⟩ => ⟨S512x512, .f32⟩
  | .hbm, ⟨8, _⟩ => ⟨S512x512, .bf16⟩
  | .hbm, ⟨9, _⟩ => ⟨S1x512, .f32⟩
  | .hbm, ⟨10, _⟩ => ⟨S1024x64x512, .f32⟩
  | .hbm, ⟨11, _⟩ => ⟨S16x4096x512, .f32⟩
  | .local _ .vmem, ⟨0, _⟩ => ⟨S16x64x512, .f32⟩
  | .local _ .vmem, ⟨1, _⟩ => ⟨S16x64x512, .f32⟩
  | .local _ .vmem, ⟨2, _⟩ => ⟨S512x1536, .bf16⟩
  | .local _ .vmem, ⟨3, _⟩ => ⟨S512x512, .bf16⟩
  | .local _ .vmem, ⟨4, _⟩ => ⟨S1x512, .f32⟩
  | .local _ .vmem, ⟨5, _⟩ => ⟨S16x64x512, .f32⟩
  | .local _ .vmem, ⟨6, _⟩ => ⟨S16x64x512, .f32⟩
  | .local _ .vmem, ⟨7, _⟩ => ⟨S1024x1536, .bf16⟩
  | .local _ .vmem, ⟨8, _⟩ => ⟨S16x64x512, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x4096x512_S1024x64x512 : S16x4096x512.ShapeCasts S1024x64x512
  transposes_S1536x512_S512x1536_1_0 : S1536x512.Transposes [1, 0] S512x1536
  bitsLt_bf16_f32 : FTy.bits .bf16 < FTy.bits .f32
  transposes_S512x512_S512x512_1_0 : S512x512.Transposes [1, 0] S512x512
  shapeCasts_S512_S1x512 : S512.ShapeCasts S1x512
  inb_S16x64x512_S16x64x512_0_0_0 : ∀ a, (![0, 0, 0] : Fin 3 → Nat) a + S16x64x512.size a ≤ S16x64x512.size a
  h_S16x64x512 : 0 < S16x64x512.numel
  shapeCasts_S16x64x512_S16x64x512 : S16x64x512.ShapeCasts S16x64x512
  shapeCasts_S16x64x512_S1024x512 : S16x64x512.ShapeCasts S1024x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1024x1536_S1024x1536_0_0 : ∀ a, (![0, 0] : Fin 2 → Nat) a + S1024x1536.size a ≤ S1024x1536.size a
  h_S1024x1536 : 0 < S1024x1536.numel
  shapeCasts_S1024x1536_S1024x1536 : S1024x1536.ShapeCasts S1024x1536
  packedbf16_S1024x1536_S1024x1536_0_0 : (Rect.unit (s := S1024x1536) ![0, 0] S1024x1536.size inb_S1024x1536_S1024x1536_0_0).PackedRows (EltTy.packing .bf16)
  inb_S1024x1536_S1024x128_0_0 : ∀ a, (![0, 0] : Fin 2 → Nat) a + S1024x128.size a ≤ S1024x1536.size a
  h_S1024x128 : 0 < S1024x128.numel
  inb_S1024x1536_S1024x128_0_512 : ∀ a, (![0, 512] : Fin 2 → Nat) a + S1024x128.size a ≤ S1024x1536.size a
  inb_S1024x1536_S1024x128_0_1024 : ∀ a, (![0, 1024] : Fin 2 → Nat) a + S1024x128.size a ≤ S1024x1536.size a
  shapeCasts_S1024x128_S16x64x128 : S1024x128.ShapeCasts S16x64x128
  slices_S16x64x128_o0_0_0_S16x64x64 : S16x64x128.Slices ![0, 0, 0] S16x64x64
  reduces_S16x64x64_S16x64 : S16x64x64.Reduces [2] S16x64
  shapeCasts_S16x64_S16x64x1 : S16x64.ShapeCasts S16x64x1
  broadcasts_S16x64x1_S16x64x64 : S16x64x1.Broadcasts S16x64x64
  slices_S16x64x128_o0_0_64_S16x64x64 : S16x64x128.Slices ![0, 0, 64] S16x64x64
  concatenates_S16x64x64_S16x64x64_S16x64x128_d2 : Shape.Concatenates [S16x64x64, S16x64x64] S16x64x128 2
  inb_S16x64x512_S16x64x128_0_0_0 : ∀ a, (![0, 0, 0] : Fin 3 → Nat) a + S16x64x128.size a ≤ S16x64x512.size a
  h_S16x64x128 : 0 < S16x64x128.numel
  shapeCasts_S16x64x128_S16x64x128 : S16x64x128.ShapeCasts S16x64x128
  inb_S1024x1536_S1024x128_0_128 : ∀ a, (![0, 128] : Fin 2 → Nat) a + S1024x128.size a ≤ S1024x1536.size a
  inb_S1024x1536_S1024x128_0_640 : ∀ a, (![0, 640] : Fin 2 → Nat) a + S1024x128.size a ≤ S1024x1536.size a
  inb_S1024x1536_S1024x128_0_1152 : ∀ a, (![0, 1152] : Fin 2 → Nat) a + S1024x128.size a ≤ S1024x1536.size a
  inb_S16x64x512_S16x64x128_0_0_128 : ∀ a, (![0, 0, 128] : Fin 3 → Nat) a + S16x64x128.size a ≤ S16x64x512.size a
  inb_S1024x1536_S1024x128_0_256 : ∀ a, (![0, 256] : Fin 2 → Nat) a + S1024x128.size a ≤ S1024x1536.size a
  inb_S1024x1536_S1024x128_0_768 : ∀ a, (![0, 768] : Fin 2 → Nat) a + S1024x128.size a ≤ S1024x1536.size a
  inb_S1024x1536_S1024x128_0_1280 : ∀ a, (![0, 1280] : Fin 2 → Nat) a + S1024x128.size a ≤ S1024x1536.size a
  inb_S16x64x512_S16x64x128_0_0_256 : ∀ a, (![0, 0, 256] : Fin 3 → Nat) a + S16x64x128.size a ≤ S16x64x512.size a
  inb_S1024x1536_S1024x128_0_384 : ∀ a, (![0, 384] : Fin 2 → Nat) a + S1024x128.size a ≤ S1024x1536.size a
  inb_S1024x1536_S1024x128_0_896 : ∀ a, (![0, 896] : Fin 2 → Nat) a + S1024x128.size a ≤ S1024x1536.size a
  inb_S1024x1536_S1024x128_0_1408 : ∀ a, (![0, 1408] : Fin 2 → Nat) a + S1024x128.size a ≤ S1024x1536.size a
  inb_S16x64x512_S16x64x128_0_0_384 : ∀ a, (![0, 0, 384] : Fin 3 → Nat) a + S16x64x128.size a ≤ S16x64x512.size a
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S1024x512_S16x64x512 : S1024x512.ShapeCasts S16x64x512
  shapeCasts_S1024x64x512_S16x4096x512 : S1024x64x512.ShapeCasts S16x4096x512
  dot_S1024x512_S512x1536_S1024x1536_1_0_0_1_n_n_wf : DotDims.WF S1024x512 S512x1536 S1024x1536 [1] [0] [0] [1] [] []
  dot_S16x64x64_S16x64x64_S16x64x64_2_2_1_1_0_0_wf : DotDims.WF S16x64x64 S16x64x64 S16x64x64 [2] [2] [1] [1] [0] [0]
  dot_S16x64x64_S16x64x64_S16x64x64_2_1_1_2_0_0_wf : DotDims.WF S16x64x64 S16x64x64 S16x64x64 [2] [1] [1] [2] [0] [0]
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64x512.size a ≤ S1024x64x512.size a
  hwx0_0 : ∀ i : grid0.Coords, EltTy.bits .f32 = 32 ∨ (Rect.block (s := S1024x64x512) S16x64x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .bf16 = 32 ∨ (Rect.block (s := S512x1536) S512x1536.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x64x512.size a ≤ S1024x64x512.size a
  hwx0_4 : ∀ i : grid0.Coords, EltTy.bits .f32 = 32 ∨ (Rect.block (s := S1024x64x512) S16x64x512.size (cc0_transform_4 i) (hinb0_4 i)).WholeWords (EltTy.packing .f32)

variable [Facts₀]

def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf
def dot_S16x64x64_S16x64x64_S16x64x64_2_2_1_1_0_0 : DotDims S16x64x64 S16x64x64 S16x64x64 where
  lhsContracting := [2]
  rhsContracting := [2]
  lhsNonContracting := [1]
  rhsNonContracting := [1]
  lhsBatch := [0]
  rhsBatch := [0]
  wf := dot_S16x64x64_S16x64x64_S16x64x64_2_2_1_1_0_0_wf
def dot_S16x64x64_S16x64x64_S16x64x64_2_1_1_2_0_0 : DotDims S16x64x64 S16x64x64 S16x64x64 where
  lhsContracting := [2]
  rhsContracting := [1]
  lhsNonContracting := [1]
  rhsNonContracting := [2]
  lhsBatch := [0]
  rhsBatch := [0]
  wf := dot_S16x64x64_S16x64x64_S16x64x64_2_1_1_2_0_0_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v0) S16x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S16x64x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x4096x512 : Shape := ⟨3, ![16, 4096, 512]⟩
abbrev S1536x512 : Shape := ⟨2, ![1536, 512]⟩
abbrev S512x512 : Shape := ⟨2, ![512, 512]⟩
abbrev S512 : Shape := ⟨1, ![512]⟩
abbrev S1024x64x512 : Shape := ⟨3, ![1024, 64, 512]⟩
abbrev S1024x64x1536 : Shape := ⟨3, ![1024, 64, 1536]⟩
abbrev S1024x64x3x8x64 : Shape := ⟨5, ![1024, 64, 3, 8, 64]⟩
abbrev S3x1024x8x64x64 : Shape := ⟨5, ![3, 1024, 8, 64, 64]⟩
abbrev S1x1024x8x64x64 : Shape := ⟨5, ![1, 1024, 8, 64, 64]⟩
abbrev S1024x8x64x64 : Shape := ⟨4, ![1024, 8, 64, 64]⟩
abbrev S_ : Shape := ⟨0, ![]⟩
abbrev S1024x8x64 : Shape := ⟨3, ![1024, 8, 64]⟩
abbrev S1024x8x64x1 : Shape := ⟨4, ![1024, 8, 64, 1]⟩
abbrev S1024x64x8x64 : Shape := ⟨4, ![1024, 64, 8, 64]⟩
abbrev S1x1x512 : Shape := ⟨3, ![1, 1, 512]⟩

abbrev nBuf : Space → Nat
  | .hbm => 39
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S1536x512, .f32⟩
  | .hbm, ⟨2, _⟩ => ⟨S512x512, .f32⟩
  | .hbm, ⟨3, _⟩ => ⟨S512, .f32⟩
  | .hbm, ⟨4, _⟩ => ⟨S1024x64x512, .f32⟩
  | .hbm, ⟨5, _⟩ => ⟨S1024x64x1536, .f32⟩
  | .hbm, ⟨6, _⟩ => ⟨S1024x64x3x8x64, .f32⟩
  | .hbm, ⟨7, _⟩ => ⟨S3x1024x8x64x64, .f32⟩
  | .hbm, ⟨8, _⟩ => ⟨S1x1024x8x64x64, .f32⟩
  | .hbm, ⟨9, _⟩ => ⟨S1024x8x64x64, .f32⟩
  | .hbm, ⟨10, _⟩ => ⟨S1x1024x8x64x64, .f32⟩
  | .hbm, ⟨11, _⟩ => ⟨S1024x8x64x64, .f32⟩
  | .hbm, ⟨12, _⟩ => ⟨S1x1024x8x64x64, .f32⟩
  | .hbm, ⟨13, _⟩ => ⟨S1024x8x64x64, .f32⟩
  | .hbm, ⟨14, _⟩ => ⟨S1024x8x64x64, .f32⟩
  | .hbm, ⟨15, _⟩ => ⟨S_, .f32⟩
  | .hbm, ⟨16, _⟩ => ⟨S1024x8x64x64, .f32⟩
  | .hbm, ⟨17, _⟩ => ⟨S1024x8x64x64, .f32⟩
  | .hbm, ⟨18, _⟩ => ⟨S_, .f32⟩
  | .hbm, ⟨19, _⟩ => ⟨S1024x8x64, .f32⟩
  | .hbm, ⟨20, _⟩ => ⟨S_, .f32⟩
  | .hbm, ⟨21, _⟩ => ⟨S1024x8x64, .f32⟩
  | .hbm, ⟨22, _⟩ => ⟨S1024x8x64, .f32⟩
  | .hbm, ⟨23, _⟩ => ⟨S1024x8x64x1, .f32⟩
  | .hbm, ⟨24, _⟩ => ⟨S1024x8x64x64, .f32⟩
  | .hbm, ⟨25, _⟩ => ⟨S1024x8x64x64, .f32⟩
  | .hbm, ⟨26, _⟩ => ⟨S1024x8x64x64, .f32⟩
  | .hbm, ⟨27, _⟩ => ⟨S_, .f32⟩
  | .hbm, ⟨28, _⟩ => ⟨S1024x8x64, .f32⟩
  | .hbm, ⟨29, _⟩ => ⟨S1024x8x64x1, .f32⟩
  | .hbm, ⟨30, _⟩ => ⟨S1024x8x64x64, .f32⟩
  | .hbm, ⟨31, _⟩ => ⟨S1024x8x64x64, .f32⟩
  | .hbm, ⟨32, _⟩ => ⟨S1024x8x64x64, .f32⟩
  | .hbm, ⟨33, _⟩ => ⟨S1024x64x8x64, .f32⟩
  | .hbm, ⟨34, _⟩ => ⟨S16x4096x512, .f32⟩
  | .hbm, ⟨35, _⟩ => ⟨S16x4096x512, .f32⟩
  | .hbm, ⟨36, _⟩ => ⟨S1x1x512, .f32⟩
  | .hbm, ⟨37, _⟩ => ⟨S16x4096x512, .f32⟩
  | .hbm, ⟨38, _⟩ => ⟨S16x4096x512, .f32⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]

class Facts₀ : Prop where
  shapeCasts_S16x4096x512_S1024x64x512 : S16x4096x512.ShapeCasts S1024x64x512
  shapeCasts_S1024x64x1536_S1024x64x3x8x64 : S1024x64x1536.ShapeCasts S1024x64x3x8x64
  transposes_S1024x64x3x8x64_S3x1024x8x64x64_2_0_3_1_4 : S1024x64x3x8x64.Transposes [2, 0, 3, 1, 4] S3x1024x8x64x64
  slices_S3x1024x8x64x64_S1x1024x8x64x64_0_0_0_0_0 : S3x1024x8x64x64.Slices ![0, 0, 0, 0, 0] S1x1024x8x64x64
  shapeCasts_S1x1024x8x64x64_S1024x8x64x64 : S1x1024x8x64x64.ShapeCasts S1024x8x64x64
  slices_S3x1024x8x64x64_S1x1024x8x64x64_1_0_0_0_0 : S3x1024x8x64x64.Slices ![1, 0, 0, 0, 0] S1x1024x8x64x64
  slices_S3x1024x8x64x64_S1x1024x8x64x64_2_0_0_0_0 : S3x1024x8x64x64.Slices ![2, 0, 0, 0, 0] S1x1024x8x64x64
  bcast_S_S1024x8x64x64 : S_.BroadcastsInDim S1024x8x64x64 (![] : Fin 0 → Fin S1024x8x64x64.rank)
  reducesTo_S1024x8x64x64_S1024x8x64_d3 : S1024x8x64x64.ReducesTo [3] S1024x8x64
  h_S_ : 0 < S_.numel
  bcast_S_S1024x8x64 : S_.BroadcastsInDim S1024x8x64 (![] : Fin 0 → Fin S1024x8x64.rank)
  bcast_S1024x8x64_S1024x8x64x1_0_1_2 : S1024x8x64.BroadcastsInDim S1024x8x64x1 (![0, 1, 2] : Fin 3 → Fin S1024x8x64x1.rank)
  bcast_S1024x8x64x1_S1024x8x64x64_0_1_2_3 : S1024x8x64x1.BroadcastsInDim S1024x8x64x64 (![0, 1, 2, 3] : Fin 4 → Fin S1024x8x64x64.rank)
  transposes_S1024x8x64x64_S1024x64x8x64_0_2_1_3 : S1024x8x64x64.Transposes [0, 2, 1, 3] S1024x64x8x64
  shapeCasts_S1024x64x8x64_S16x4096x512 : S1024x64x8x64.ShapeCasts S16x4096x512
  bcast_S512_S1x1x512_2 : S512.BroadcastsInDim S1x1x512 (![2] : Fin 1 → Fin S1x1x512.rank)
  bcast_S1x1x512_S16x4096x512_0_1_2 : S1x1x512.BroadcastsInDim S16x4096x512 (![0, 1, 2] : Fin 3 → Fin S16x4096x512.rank)
  dot_S1024x64x512_S1536x512_S1024x64x1536_2_1_01_0_n_n_wf : DotDims.WF S1024x64x512 S1536x512 S1024x64x1536 [2] [1] [0, 1] [0] [] []
  dot_S1024x8x64x64_S1024x8x64x64_S1024x8x64x64_3_3_2_2_01_01_wf : DotDims.WF S1024x8x64x64 S1024x8x64x64 S1024x8x64x64 [3] [3] [2] [2] [0, 1] [0, 1]
  dot_S1024x8x64x64_S1024x8x64x64_S1024x8x64x64_3_2_2_3_01_01_wf : DotDims.WF S1024x8x64x64 S1024x8x64x64 S1024x8x64x64 [3] [2] [2] [3] [0, 1] [0, 1]
  dot_S16x4096x512_S512x512_S16x4096x512_2_1_01_0_n_n_wf : DotDims.WF S16x4096x512 S512x512 S16x4096x512 [2] [1] [0, 1] [0] [] []

variable [Facts₀]

def dot_S1024x64x512_S1536x512_S1024x64x1536_2_1_01_0_n_n : DotDims S1024x64x512 S1536x512 S1024x64x1536 where
  lhsContracting := [2]
  rhsContracting := [1]
  lhsNonContracting := [0, 1]
  rhsNonContracting := [0]
  lhsBatch := []
  rhsBatch := []
  wf := dot_S1024x64x512_S1536x512_S1024x64x1536_2_1_01_0_n_n_wf
def dot_S1024x8x64x64_S1024x8x64x64_S1024x8x64x64_3_3_2_2_01_01 : DotDims S1024x8x64x64 S1024x8x64x64 S1024x8x64x64 where
  lhsContracting := [3]
  rhsContracting := [3]
  lhsNonContracting := [2]
  rhsNonContracting := [2]
  lhsBatch := [0, 1]
  rhsBatch := [0, 1]
  wf := dot_S1024x8x64x64_S1024x8x64x64_S1024x8x64x64_3_3_2_2_01_01_wf
def dot_S1024x8x64x64_S1024x8x64x64_S1024x8x64x64_3_2_2_3_01_01 : DotDims S1024x8x64x64 S1024x8x64x64 S1024x8x64x64 where
  lhsContracting := [3]
  rhsContracting := [2]
  lhsNonContracting := [2]
  rhsNonContracting := [3]
  lhsBatch := [0, 1]
  rhsBatch := [0, 1]
  wf := dot_S1024x8x64x64_S1024x8x64x64_S1024x8x64x64_3_2_2_3_01_01_wf
def dot_S16x4096x512_S512x512_S16x4096x512_2_1_01_0_n_n : DotDims S16x4096x512 S512x512 S16x4096x512 where
  lhsContracting := [2]
  rhsContracting := [1]
  lhsNonContracting := [0, 1]
  rhsNonContracting := [0]
  lhsBatch := []
  rhsBatch := []
  wf := dot_S16x4096x512_S512x512_S16x4096x512_2_1_01_0_n_n_wf

class Facts : Prop extends Facts₀ where

variable [Facts]
-- ==== Proof.AttnSpec.lean ====
/-
  Windowed multi-head attention, as plain functions of coordinates on the extended reals.

  One window has 64 tokens of width 512. Its rows are projected to 1536 columns (queries, keys and values side by
  side, 8 heads of width 64 in each third); within each head the 64 × 64 scores are the scaled dot products of a
  query row with the key rows, each row of scores is turned into weights by the softmax (subtract the row maximum,
  exponentiate, divide by the row sum), the head's output row is the weighted sum of the value rows, the 8 heads
  are laid side by side, and the 512 columns are projected once more and shifted by a bias.

  Nothing is proved here: these are the definitions both programs are compared against. The two float words that
  occur (minus infinity, where a row maximum starts, and the scale 1/8) are kept as words: both programs spell them
  the same way, so they are never evaluated.
-/
import Idealize.ShloMosaic.PureOps.Ideal.Laws
import Idealize.ShloMosaic.Lib.ValueIdx

noncomputable section

open scoped BigOperators

namespace Cert.Attn

open Idealize.ShloMosaic Idealize.ShloMosaic.ValueIdx

/-- Where a row maximum starts: the float word of minus infinity. -/
abbrev negInf : EReal := Ideal.ofBits .f32 0xFF800000#32
/-- The score scale (head width 64)^(-1/2) = 1/8, as its float word. -/
abbrev scale : EReal := Ideal.ofBits .f32 0x3E000000#32

section OneHead
variable {n d : Nat}

/-- The scaled score of query row `i` against key row `j`. -/
def score (q k : Fin n → Fin d → EReal) (i j : Fin n) : EReal := (∑ e : Fin d, q i e * k j e) * scale

/-- The maximum of row `i` of the scores (started from minus infinity, and once more compared with it). -/
def rowMax (s : Fin n → Fin n → EReal) (i : Fin n) : EReal :=
  max negInf ((Finset.univ : Finset (Fin n)).fold max negInf (s i))

/-- The exponential of a score less its row's maximum. -/
def expd (s : Fin n → Fin n → EReal) (i j : Fin n) : EReal := Ideal.exp (s i j - rowMax s i)

/-- The softmax weight: that exponential over the sum of its row. -/
def prob (s : Fin n → Fin n → EReal) (i j : Fin n) : EReal := Ideal.div (expd s i j) (∑ j' : Fin n, expd s i j')

/-- One head's output: row `i` is the weighted sum of the value rows. -/
def out (q k v : Fin n → Fin d → EReal) (i : Fin n) (e : Fin d) : EReal :=
  ∑ j : Fin n, prob (score q k) i j * v j e

end OneHead

section OneWindow

/-- The projected row `i` of a window at column `dc` of the 1536: the row against row `dc` of the weights. -/
def qkvAt (X : Fin 64 → Fin 512 → EReal) (W : Fin 1536 → Fin 512 → EReal) (i : Fin 64) (dc : Fin 1536) : EReal :=
  ∑ c : Fin 512, X i c * W dc c

/-- Third `s` (0 queries, 1 keys, 2 values) of head `h`: columns `512 s + 64 h + e` of the projection. -/
def part (X : Fin 64 → Fin 512 → EReal) (W : Fin 1536 → Fin 512 → EReal) (s : Fin 3) (h : Fin 8) :
    Fin 64 → Fin 64 → EReal :=
  fun i e => qkvAt X W i ⟨512 * s.val + 64 * h.val + e.val, by omega⟩

/-- The attention output of a window at row `i`, column `c` of the 512: head `c / 64`, its column `c % 64`. -/
def attnAt (X : Fin 64 → Fin 512 → EReal) (W : Fin 1536 → Fin 512 → EReal) (i : Fin 64) (c : Fin 512) : EReal :=
  out (part X W 0 ⟨c.val / 64, by omega⟩) (part X W 1 ⟨c.val / 64, by omega⟩) (part X W 2 ⟨c.val / 64, by omega⟩)
    i ⟨c.val % 64, by omega⟩

/-- The window's result at row `i`, column `dd`: the attention row against row `dd` of the output weights, plus
    the bias. -/
def resAt (X : Fin 64 → Fin 512 → EReal) (W : Fin 1536 → Fin 512 → EReal) (P : Fin 512 → Fin 512 → EReal)
    (B : Fin 512 → EReal) (i : Fin 64) (dd : Fin 512) : EReal :=
  (∑ c : Fin 512, attnAt X W i c * P dd c) + B dd

end OneWindow

/-- The result over all 1024 windows, as an array [1024, 64, 512], from the windows' rows (an array of the same
    shape) and the three parameter arrays. -/
def result (A : (⟨3, ![1024, 64, 512]⟩ : Shape).Idx → EReal) (a1 : (⟨2, ![1536, 512]⟩ : Shape).Idx → EReal)
    (a2 : (⟨2, ![512, 512]⟩ : Shape).Idx → EReal) (a3 : (⟨1, ![512]⟩ : Shape).Idx → EReal) :
    (⟨3, ![1024, 64, 512]⟩ : Shape).Idx → EReal := fun j =>
  resAt (fun i c => A (ix3 (j 0) i c)) (fun dc c => a1 (ix2 dc c)) (fun dd c => a2 (ix2 dd c)) (fun dd => a3 (ix1 dd))
    (j 1) (j 2)

end Cert.Attn

end
-- ==== Proof.LibBatchedProduct.lean ====
/-
  A batched matrix product with both operands contracted on their last axis, read at an entry.

  The operands are [m, a, K] and [m, b, K]; axis 0 of each is the batch, axis 2 of each is contracted, and the
  result is [m, a, b]. At the ideal values the vector unit's product into a zero accumulator, read at sample `p`,
  row `i` and column `j`, is the sum over `k : Fin K` of `l (p, i, k) · r (p, j, k)`: the contraction's one-axis
  index set is re-indexed by its coordinate, and each operand's index at an output index is computed axis by
  axis (the batch coordinate is the output's first, the free coordinate the output's second or third, the
  contracted coordinate the contraction's).
-/
import Idealize.ShloMosaic.PureOps.Ideal.Laws
import Idealize.ShloMosaic.Lib.ValueIdx

noncomputable section

open scoped BigOperators

namespace Idealize.ShloMosaic.BatchedProduct

open Idealize.ShloMosaic Idealize.ShloMosaic.ValueIdx

variable {m a b K : Nat}

/-- The dimension numbers in question: contract axis 2 of both operands, batch over axis 0 of both. -/
structure IsBatchedLast (d : DotDims ⟨3, ![m, a, K]⟩ ⟨3, ![m, b, K]⟩ ⟨3, ![m, a, b]⟩) : Prop where
  lc : d.lhsContracting = [2]
  rc : d.rhsContracting = [2]
  ln : d.lhsNonContracting = [1]
  rn : d.rhsNonContracting = [1]
  lb : d.lhsBatch = [0]
  rb : d.rhsBatch = [0]

variable {d : DotDims ⟨3, ![m, a, K]⟩ ⟨3, ![m, b, K]⟩ ⟨3, ![m, a, b]⟩}

theorem rank_contr_one (h : IsBatchedLast d) : d.contr.rank = 1 := by
  rw [d.rank_contr, h.lc]; rfl

/-- The left operand's sample is the output's. -/
theorem lhs_batch (h : IsBatchedLast d) (i : (⟨3, ![m, a, b]⟩ : Shape).Idx) (q : d.contr.Idx) :
    (d.lhsIdx i q 0).val = (i 0).val := by
  obtain ⟨lc, rc, ln, rn, lb, rb, wf⟩ := d
  obtain ⟨h1, h2, h3, h4, h5, h6⟩ := h
  dsimp only at h1 h2 h3 h4 h5 h6
  subst h1 h2 h3 h4 h5 h6
  unfold DotDims.lhsIdx
  rw [dif_pos (show (0 : Fin 3) ∈ ([0] : List (Fin 3)) from List.mem_singleton.mpr rfl)]
  rfl

/-- The left operand's row is the output's row. -/
theorem lhs_row (h : IsBatchedLast d) (i : (⟨3, ![m, a, b]⟩ : Shape).Idx) (q : d.contr.Idx) :
    (d.lhsIdx i q 1).val = (i 1).val := by
  obtain ⟨lc, rc, ln, rn, lb, rb, wf⟩ := d
  obtain ⟨h1, h2, h3, h4, h5, h6⟩ := h
  dsimp only at h1 h2 h3 h4 h5 h6
  subst h1 h2 h3 h4 h5 h6
  unfold DotDims.lhsIdx
  rw [dif_neg (show ¬ (1 : Fin 3) ∈ ([0] : List (Fin 3)) by decide),
    dif_pos (show (1 : Fin 3) ∈ ([1] : List (Fin 3)) from List.mem_singleton.mpr rfl)]
  rfl

/-- The left operand's last coordinate is the contraction's. -/
theorem lhs_contr (h : IsBatchedLast d) (i : (⟨3, ![m, a, b]⟩ : Shape).Idx) (q : d.contr.Idx) :
    (d.lhsIdx i q 2).val = (q ⟨0, by rw [rank_contr_one h]; exact Nat.one_pos⟩).val :=
  d.lhsIdx_val_of_single h.lc i q

/-- The right operand's sample is the output's. -/
theorem rhs_batch (h : IsBatchedLast d) (i : (⟨3, ![m, a, b]⟩ : Shape).Idx) (q : d.contr.Idx) :
    (d.rhsIdx i q 0).val = (i 0).val := by
  obtain ⟨lc, rc, ln, rn, lb, rb, wf⟩ := d
  obtain ⟨h1, h2, h3, h4, h5, h6⟩ := h
  dsimp only at h1 h2 h3 h4 h5 h6
  subst h1 h2 h3 h4 h5 h6
  unfold DotDims.rhsIdx
  rw [dif_pos (show (0 : Fin 3) ∈ ([0] : List (Fin 3)) from List.mem_singleton.mpr rfl)]
  rfl

/-- The right operand's row is the output's column. -/
theorem rhs_row (h : IsBatchedLast d) (i : (⟨3, ![m, a, b]⟩ : Shape).Idx) (q : d.contr.Idx) :
    (d.rhsIdx i q 1).val = (i 2).val := by
  obtain ⟨lc, rc, ln, rn, lb, rb, wf⟩ := d
  obtain ⟨h1, h2, h3, h4, h5, h6⟩ := h
  dsimp only at h1 h2 h3 h4 h5 h6
  subst h1 h2 h3 h4 h5 h6
  unfold DotDims.rhsIdx
  rw [dif_neg (show ¬ (1 : Fin 3) ∈ ([0] : List (Fin 3)) by decide),
    dif_pos (show (1 : Fin 3) ∈ ([1] : List (Fin 3)) from List.mem_singleton.mpr rfl)]
  rfl

/-- The right operand's last coordinate is the contraction's. -/
theorem rhs_contr (h : IsBatchedLast d) (i : (⟨3, ![m, a, b]⟩ : Shape).Idx) (q : d.contr.Idx) :
    (d.rhsIdx i q 2).val = (q ⟨0, by rw [rank_contr_one h]; exact Nat.one_pos⟩).val :=
  d.rhsIdx_val_of_single h.rc i q

/-- The contraction has the operands' last extent. -/
theorem size_contr (h : IsBatchedLast d) : d.contr.size ⟨0, by rw [rank_contr_one h]; exact Nat.one_pos⟩ = K := by
  obtain ⟨lc, rc, ln, rn, lb, rb, wf⟩ := d
  obtain ⟨h1, h2, h3, h4, h5, h6⟩ := h
  dsimp only at h1 h2 h3 h4 h5 h6
  subst h1 h2 h3 h4 h5 h6
  rfl

/-- The contraction's sum at entry `(p, i, j)` is the sum over `k` of `l (p, i, k) · r (p, j, k)`. -/
theorem sum_contr (h : IsBatchedLast d) (l : (⟨3, ![m, a, K]⟩ : Shape).Idx → EReal) (r : (⟨3, ![m, b, K]⟩ : Shape).Idx → EReal)
    (p : Fin m) (i : Fin a) (j : Fin b) :
    ∑ k : d.contr.Idx, l (d.lhsIdx (ix3 p i j) k) * r (d.rhsIdx (ix3 p i j) k) = ∑ k : Fin K, l (ix3 p i k) * r (ix3 p j k) := by
  have hr := rank_contr_one h
  have hs := size_contr h
  rw [← Equiv.sum_comp (contrEquiv1 d K hr hs).symm]
  refine Finset.sum_congr rfl fun k _ => ?_
  have hk := contrEquiv1_symm_val d K hr hs k
  have el : d.lhsIdx (ix3 p i j) ((contrEquiv1 d K hr hs).symm k) = ix3 p i k :=
    funext fun ax => Fin.ext (by
      match ax with
      | ⟨0, _⟩ => exact lhs_batch h _ _
      | ⟨1, _⟩ => exact lhs_row h _ _
      | ⟨2, _⟩ => exact (lhs_contr h _ _).trans hk)
  have er : d.rhsIdx (ix3 p i j) ((contrEquiv1 d K hr hs).symm k) = ix3 p j k :=
    funext fun ax => Fin.ext (by
      match ax with
      | ⟨0, _⟩ => exact rhs_batch h _ _
      | ⟨1, _⟩ => exact rhs_row h _ _
      | ⟨2, _⟩ => exact (rhs_contr h _ _).trans hk)
  rw [el, er]

/-- The vector unit's batched product into a zero accumulator at entry `(p, i, j)`. -/
theorem matmul_zero_apply {φ₁ φ₂ : FTy} (h : IsBatchedLast d) (prec : Option ContractPrecision)
    (l : FVec Ideal ⟨3, ![m, a, K]⟩ φ₁) (r : FVec Ideal ⟨3, ![m, b, K]⟩ φ₂) (p : Fin m) (i : Fin a) (j : Fin b) :
    matmul d prec l r (constant ⟨3, ![m, a, b]⟩ .f32 0x00000000#32) (ix3 p i j) = ∑ k : Fin K, l (ix3 p i k) * r (ix3 p j k) := by
  simp only [matmul]
  rw [Ideal.matmul_constant_zero_apply]
  exact sum_contr h l r p i j

end Idealize.ShloMosaic.BatchedProduct

end
-- ==== Proof.LibBatchedApply.lean ====
/-
  A batched matrix product of weights with rows, read at an entry.

  The operands are [m, a, K] and [m, K, b]; axis 0 of each is the batch, the last axis of the left operand is
  contracted with the middle axis of the right one, and the result is [m, a, b]. At the ideal values the vector
  unit's product into a zero accumulator, read at sample `p`, row `i` and column `j`, is the sum over `k : Fin K`
  of `l (p, i, k) · r (p, k, j)`: the contraction's one-axis index set is re-indexed by its coordinate, and each
  operand's index at an output index is computed axis by axis.
-/
import Idealize.ShloMosaic.PureOps.Ideal.Laws
import Idealize.ShloMosaic.Lib.ValueIdx

noncomputable section

open scoped BigOperators

namespace Idealize.ShloMosaic.BatchedApply

open Idealize.ShloMosaic Idealize.ShloMosaic.ValueIdx

variable {m a b K : Nat}

/-- The dimension numbers in question: the left operand's axis 2 against the right operand's axis 1, batch over axis 0
    of both. -/
structure IsBatchedMid (d : DotDims ⟨3, ![m, a, K]⟩ ⟨3, ![m, K, b]⟩ ⟨3, ![m, a, b]⟩) : Prop where
  lc : d.lhsContracting = [2]
  rc : d.rhsContracting = [1]
  ln : d.lhsNonContracting = [1]
  rn : d.rhsNonContracting = [2]
  lb : d.lhsBatch = [0]
  rb : d.rhsBatch = [0]

variable {d : DotDims ⟨3, ![m, a, K]⟩ ⟨3, ![m, K, b]⟩ ⟨3, ![m, a, b]⟩}

theorem rank_contr_one (h : IsBatchedMid d) : d.contr.rank = 1 := by
  rw [d.rank_contr, h.lc]; rfl

/-- The left operand's sample is the output's. -/
theorem lhs_batch (h : IsBatchedMid d) (i : (⟨3, ![m, a, b]⟩ : Shape).Idx) (q : d.contr.Idx) :
    (d.lhsIdx i q 0).val = (i 0).val := by
  obtain ⟨lc, rc, ln, rn, lb, rb, wf⟩ := d
  obtain ⟨h1, h2, h3, h4, h5, h6⟩ := h
  dsimp only at h1 h2 h3 h4 h5 h6
  subst h1 h2 h3 h4 h5 h6
  unfold DotDims.lhsIdx
  rw [dif_pos (show (0 : Fin 3) ∈ ([0] : List (Fin 3)) from List.mem_singleton.mpr rfl)]
  rfl

/-- The left operand's row is the output's row. -/
theorem lhs_row (h : IsBatchedMid d) (i : (⟨3, ![m, a, b]⟩ : Shape).Idx) (q : d.contr.Idx) :
    (d.lhsIdx i q 1).val = (i 1).val := by
  obtain ⟨lc, rc, ln, rn, lb, rb, wf⟩ := d
  obtain ⟨h1, h2, h3, h4, h5, h6⟩ := h
  dsimp only at h1 h2 h3 h4 h5 h6
  subst h1 h2 h3 h4 h5 h6
  unfold DotDims.lhsIdx
  rw [dif_neg (show ¬ (1 : Fin 3) ∈ ([0] : List (Fin 3)) by decide),
    dif_pos (show (1 : Fin 3) ∈ ([1] : List (Fin 3)) from List.mem_singleton.mpr rfl)]
  rfl

/-- The left operand's last coordinate is the contraction's. -/
theorem lhs_contr (h : IsBatchedMid d) (i : (⟨3, ![m, a, b]⟩ : Shape).Idx) (q : d.contr.Idx) :
    (d.lhsIdx i q 2).val = (q ⟨0, by rw [rank_contr_one h]; exact Nat.one_pos⟩).val :=
  d.lhsIdx_val_of_single h.lc i q

/-- The right operand's sample is the output's. -/
theorem rhs_batch (h : IsBatchedMid d) (i : (⟨3, ![m, a, b]⟩ : Shape).Idx) (q : d.contr.Idx) :
    (d.rhsIdx i q 0).val = (i 0).val := by
  obtain ⟨lc, rc, ln, rn, lb, rb, wf⟩ := d
  obtain ⟨h1, h2, h3, h4, h5, h6⟩ := h
  dsimp only at h1 h2 h3 h4 h5 h6
  subst h1 h2 h3 h4 h5 h6
  unfold DotDims.rhsIdx
  rw [dif_pos (show (0 : Fin 3) ∈ ([0] : List (Fin 3)) from List.mem_singleton.mpr rfl)]
  rfl

/-- The right operand's middle coordinate is the contraction's. -/
theorem rhs_contr (h : IsBatchedMid d) (i : (⟨3, ![m, a, b]⟩ : Shape).Idx) (q : d.contr.Idx) :
    (d.rhsIdx i q 1).val = (q ⟨0, by rw [rank_contr_one h]; exact Nat.one_pos⟩).val :=
  d.rhsIdx_val_of_single h.rc i q

/-- The right operand's column is the output's column. -/
theorem rhs_col (h : IsBatchedMid d) (i : (⟨3, ![m, a, b]⟩ : Shape).Idx) (q : d.contr.Idx) :
    (d.rhsIdx i q 2).val = (i 2).val := by
  obtain ⟨lc, rc, ln, rn, lb, rb, wf⟩ := d
  obtain ⟨h1, h2, h3, h4, h5, h6⟩ := h
  dsimp only at h1 h2 h3 h4 h5 h6
  subst h1 h2 h3 h4 h5 h6
  unfold DotDims.rhsIdx
  rw [dif_neg (show ¬ (2 : Fin 3) ∈ ([0] : List (Fin 3)) by decide),
    dif_pos (show (2 : Fin 3) ∈ ([2] : List (Fin 3)) from List.mem_singleton.mpr rfl)]
  rfl

/-- The contraction has the left operand's last extent. -/
theorem size_contr (h : IsBatchedMid d) : d.contr.size ⟨0, by rw [rank_contr_one h]; exact Nat.one_pos⟩ = K := by
  obtain ⟨lc, rc, ln, rn, lb, rb, wf⟩ := d
  obtain ⟨h1, h2, h3, h4, h5, h6⟩ := h
  dsimp only at h1 h2 h3 h4 h5 h6
  subst h1 h2 h3 h4 h5 h6
  rfl

/-- The contraction's sum at entry `(p, i, j)` is the sum over `k` of `l (p, i, k) · r (p, k, j)`. -/
theorem sum_contr (h : IsBatchedMid d) (l : (⟨3, ![m, a, K]⟩ : Shape).Idx → EReal) (r : (⟨3, ![m, K, b]⟩ : Shape).Idx → EReal)
    (p : Fin m) (i : Fin a) (j : Fin b) :
    ∑ k : d.contr.Idx, l (d.lhsIdx (ix3 p i j) k) * r (d.rhsIdx (ix3 p i j) k) = ∑ k : Fin K, l (ix3 p i k) * r (ix3 p k j) := by
  have hr := rank_contr_one h
  have hs := size_contr h
  rw [← Equiv.sum_comp (contrEquiv1 d K hr hs).symm]
  refine Finset.sum_congr rfl fun k _ => ?_
  have hk := contrEquiv1_symm_val d K hr hs k
  have el : d.lhsIdx (ix3 p i j) ((contrEquiv1 d K hr hs).symm k) = ix3 p i k :=
    funext fun ax => Fin.ext (by
      match ax with
      | ⟨0, _⟩ => exact lhs_batch h _ _
      | ⟨1, _⟩ => exact lhs_row h _ _
      | ⟨2, _⟩ => exact (lhs_contr h _ _).trans hk)
  have er : d.rhsIdx (ix3 p i j) ((contrEquiv1 d K hr hs).symm k) = ix3 p k j :=
    funext fun ax => Fin.ext (by
      match ax with
      | ⟨0, _⟩ => exact rhs_batch h _ _
      | ⟨1, _⟩ => exact (rhs_contr h _ _).trans hk
      | ⟨2, _⟩ => exact rhs_col h _ _)
  rw [el, er]

/-- The vector unit's batched product into a zero accumulator at entry `(p, i, j)`. -/
theorem matmul_zero_apply {φ₁ φ₂ : FTy} (h : IsBatchedMid d) (prec : Option ContractPrecision)
    (l : FVec Ideal ⟨3, ![m, a, K]⟩ φ₁) (r : FVec Ideal ⟨3, ![m, K, b]⟩ φ₂) (p : Fin m) (i : Fin a) (j : Fin b) :
    matmul d prec l r (constant ⟨3, ![m, a, b]⟩ .f32 0x00000000#32) (ix3 p i j) = ∑ k : Fin K, l (ix3 p i k) * r (ix3 p k j) := by
  simp only [matmul]
  rw [Ideal.matmul_constant_zero_apply]
  exact sum_contr h l r p i j

end Idealize.ShloMosaic.BatchedApply

end
-- ==== Proof.HeadKernel.lean ====
/-
  One attention head as the vector unit computes it on a block of 16 windows, and what it holds entry by entry.

  The operands are the head's queries, keys and values for the 16 windows, each [16, 64, 64] (window, token, head
  column). The head is: the batched product of queries with keys (contracting the head columns), times the scale;
  each row's maximum (a reduction over the last axis started from minus infinity, compared once more with minus
  infinity), laid back over the row; the exponential of the difference; each row's sum, laid back over the row;
  the quotient; and the batched product of these weights with the values. Read at window `b`, token `i` and
  column `e`, it is the softmax-weighted sum of the value rows of window `b` (`Cert.Attn.out`).
-/
import proofs.«120152_j50182397886562_2_alg».proof.KernelIdeal
import proofs.«120152_j50182397886562_2_alg».proof.Proof.AttnSpec
import proofs.«120152_j50182397886562_2_alg».proof.Proof.LibBatchedProduct
import proofs.«120152_j50182397886562_2_alg».proof.Proof.LibBatchedApply
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.ShloMosaic.ValueIdx

namespace Cert.KernelIdeal.Head

open Cert.KernelIdeal Cert.KernelIdeal.Facts₀

section Defs
variable {F : FTy → Type} [FloatOps F] [Facts]

/-- The scaled scores of the 16 windows: queries against keys, times 1/8. -/
def scores (q k : FVec F S16x64x64 .bf16) : FVec F S16x64x64 .f32 :=
  mulf (matmul dot_S16x64x64_S16x64x64_S16x64x64_2_2_1_1_0_0 none q k (constant S16x64x64 .f32 0x00000000#32))
    (broadcast S16x64x64 (Scalar.ofBits .f32 0x3E000000#32))

/-- Each row's maximum, laid back over the row. -/
def rowMaxV (s : FVec F S16x64x64 .f32) : FVec F S16x64x64 .f32 :=
  broadcastTo S16x64x64
    (shapeCast S16x64x1
      (maximumf (broadcast S16x64 (Scalar.ofBits .f32 0xFF800000#32))
        (multiReduction .maximumf [2] S16x64 s 0xFF800000#32 reduces_S16x64x64_S16x64 (.inl rfl) rfl))
      shapeCasts_S16x64_S16x64x1)
    broadcasts_S16x64x1_S16x64x64

/-- The exponentials of the scores less their row maxima. -/
def expV (s : FVec F S16x64x64 .f32) : FVec F S16x64x64 .f32 := exp (subf s (rowMaxV s))

/-- Each exponential over its row's sum. -/
def probV (ex : FVec F S16x64x64 .f32) : FVec F S16x64x64 .f32 :=
  divf ex
    (broadcastTo S16x64x64
      (shapeCast S16x64x1
        (multiReduction .add [2] S16x64 ex 0x00000000#32 reduces_S16x64x64_S16x64 (.inl rfl) rfl)
        shapeCasts_S16x64_S16x64x1)
      broadcasts_S16x64x1_S16x64x64)

/-- The head: the weights against the values. -/
def head (q k v : FVec F S16x64x64 .bf16) : FVec F S16x64x64 .f32 :=
  matmul dot_S16x64x64_S16x64x64_S16x64x64_2_1_1_2_0_0 none
    (truncf .bf16 (probV (expV (scores q k))) bitsLt_bf16_f32) v (constant S16x64x64 .f32 0x00000000#32)

end Defs

section AtIdeal
variable [Facts]

/-- A row vector [16, 64] recast as a column [16, 64, 1] and laid across [16, 64, 64] reads, at `(b, i, j)`, the
    vector at `(b, i)`. -/
theorem across_apply (x : FVec Ideal S16x64 .f32) (b : Fin 16) (i j : Fin 64) :
    broadcastTo S16x64x64 (shapeCast S16x64x1 x shapeCasts_S16x64_S16x64x1) broadcasts_S16x64x1_S16x64x64 (ix3 b i j)
      = x (ix2 b i) := by
  refine (broadcastTo_apply _ broadcasts_S16x64x1_S16x64x64 (ix3 b i j) (ix3 b i (0 : Fin 1)) fun a => ?_).trans ?_
  · match a with
    | ⟨0, _⟩ => rfl
    | ⟨1, _⟩ => rfl
    | ⟨2, _⟩ => rfl
  · refine shapeCast_apply x shapeCasts_S16x64_S16x64x1 (ix3 b i (0 : Fin 1)) (ix2 b i) ?_
    rw [Shape.rowMajor_val_two, Shape.rowMajor_val_three]
    show b.val * 64 + i.val = (b.val * 64 + i.val) * 1 + 0
    omega

/-- The index over `(b, i)` with last coordinate `k` is `(b, i, k)`. -/
theorem lift_eq (b : Fin 16) (i k : Fin 64) :
    reduces_S16x64x64_S16x64.lift (ix2 b i) k = ix3 b i k := by
  funext a
  apply Fin.ext
  match a with
  | ⟨0, _⟩ => rfl
  | ⟨1, _⟩ => rfl
  | ⟨2, _⟩ => rfl

theorem scores_apply (q k : FVec Ideal S16x64x64 .bf16) (b : Fin 16) (i j : Fin 64) :
    scores q k (ix3 b i j)
      = Cert.Attn.score (fun i e => q (ix3 b i e)) (fun j e => k (ix3 b j e)) i j := by
  unfold scores Cert.Attn.score
  rw [mulf_apply, broadcast_apply]
  refine congrArg (· * _) ?_
  exact BatchedProduct.matmul_zero_apply (d := dot_S16x64x64_S16x64x64_S16x64x64_2_2_1_1_0_0)
    ⟨rfl, rfl, rfl, rfl, rfl, rfl⟩ none q k b i j

theorem rowMaxV_apply (s : FVec Ideal S16x64x64 .f32) (b : Fin 16) (i j : Fin 64) :
    rowMaxV s (ix3 b i j) = Cert.Attn.rowMax (fun i j => s (ix3 b i j)) i := by
  unfold rowMaxV Cert.Attn.rowMax
  rw [across_apply, maximumf_apply, broadcast_apply]
  refine congrArg (max _) ?_
  refine (Ideal.multiReduction_maximumf_single s 0xFF800000#32 reduces_S16x64x64_S16x64 _ _ (ix2 b i)).trans ?_
  refine congrArg (Finset.fold max _ · Finset.univ) ?_
  funext k
  exact congrArg s (lift_eq b i k)

theorem expV_apply (s : FVec Ideal S16x64x64 .f32) (b : Fin 16) (i j : Fin 64) :
    expV s (ix3 b i j) = Cert.Attn.expd (fun i j => s (ix3 b i j)) i j := by
  unfold expV Cert.Attn.expd
  show Ideal.exp (subf s (rowMaxV s) (ix3 b i j)) = _
  rw [subf_apply, rowMaxV_apply]

theorem probV_apply (ex : FVec Ideal S16x64x64 .f32) (b : Fin 16) (i j : Fin 64) :
    probV ex (ix3 b i j) = Ideal.div (ex (ix3 b i j)) (∑ j' : Fin 64, ex (ix3 b i j')) := by
  unfold probV
  rw [divf_apply, across_apply]
  refine congrArg (Ideal.div _) ?_
  refine (Ideal.multiReduction_add_single ex 0x00000000#32 reduces_S16x64x64_S16x64 _ _ (ix2 b i)).trans ?_
  exact Finset.sum_congr rfl fun k _ => congrArg ex (lift_eq b i k)

/-- THE HEAD at window `b`, token `i`, column `e`: the attention of window `b`'s queries, keys and values. -/
theorem head_apply (q k v : FVec Ideal S16x64x64 .bf16) (b : Fin 16) (i e : Fin 64) :
    head q k v (ix3 b i e)
      = Cert.Attn.out (fun i e => q (ix3 b i e)) (fun j e => k (ix3 b j e)) (fun j e => v (ix3 b j e)) i e := by
  unfold head Cert.Attn.out
  rw [BatchedApply.matmul_zero_apply (d := dot_S16x64x64_S16x64x64_S16x64x64_2_1_1_2_0_0)
    ⟨rfl, rfl, rfl, rfl, rfl, rfl⟩ none _ v b i e]
  refine Finset.sum_congr rfl fun j _ => ?_
  refine congrArg (· * _) ?_
  rw [truncf_apply, probV_apply]
  have hs : (fun i j => scores q k (ix3 b i j))
      = Cert.Attn.score (fun i e => q (ix3 b i e)) (fun j e => k (ix3 b j e)) :=
    funext fun i => funext fun j => scores_apply q k b i j
  unfold Cert.Attn.prob
  simp only [expV_apply, hs]

end AtIdeal

end Cert.KernelIdeal.Head

end
-- ==== Proof.PairKernel.lean ====
/-
  Two heads side by side, as the vector unit computes them on a block of 16 windows.

  The queries, keys and values of a pair of heads arrive as three [1024, 128] column bands of the projected rows
  (1024 = 16 windows × 64 tokens), are recast to [16, 64, 128], cut into their two 64-column halves, each half is
  one head (`Head.head`), and the two outputs are laid side by side again. Read at window `b`, token `i` and
  column `64 h + e` of the 128, the result is head `h` of the pair at column `e`: the attention of window `b` over
  the bands' columns `64 h + e`. Each of the four values the step stores into its second scratch array is such a
  pair, of the bands its two heads read.
-/
import proofs.«120152_j50182397886562_2_alg».proof.Proof.HeadKernel
import proofs.«120152_j50182397886562_2_alg».proof.Proof.Gen.KernelIdeal.Skeleton

noncomputable section

open scoped BigOperators
open Idealize.ShloMosaic Idealize.ShloMosaic.TcCoe Idealize.ShloMosaic.ValueIdx

namespace Cert.KernelIdeal.Pair

open Cert.KernelIdeal Cert.KernelIdeal.Facts₀ Cert.KernelIdeal.Head

section Defs
variable {F : FTy → Type} [FloatOps F] [Facts]

/-- A [1024, 128] band of rows as [16, 64, 128]: window, token, column. -/
def band (v : Vec F S1024x128 .bf16) : FVec F S16x64x128 .bf16 :=
  shapeCast S16x64x128 v shapeCasts_S1024x128_S16x64x128

/-- The first and the second 64 columns. -/
def half0 (x : FVec F S16x64x128 .bf16) : FVec F S16x64x64 .bf16 :=
  extractStridedSlice S16x64x64 ![0, 0, 0] x slices_S16x64x128_o0_0_0_S16x64x64
def half1 (x : FVec F S16x64x128 .bf16) : FVec F S16x64x64 .bf16 :=
  extractStridedSlice S16x64x64 ![0, 0, 64] x slices_S16x64x128_o0_0_64_S16x64x64

/-- The pair: each half's head, side by side. -/
def pair (qp kp vp : FVec F S16x64x128 .bf16) : FVec F S16x64x128 .f32 :=
  shapeCast S16x64x128
    (concatenate S16x64x128 2
      [⟨S16x64x64, head (half0 qp) (half0 kp) (half0 vp)⟩, ⟨S16x64x64, head (half1 qp) (half1 kp) (half1 vp)⟩]
      concatenates_S16x64x64_S16x64x64_S16x64x128_d2)
    shapeCasts_S16x64x128_S16x64x128

/-- The four stored values are pairs of the bands they read (pair `p` reads the bands at columns `128 p`,
    `512 + 128 p` and `1024 + 128 p`): the same operations in the same order, grouped by head. -/
theorem store0_eq (a b c : Vec F S1024x128 .bf16) :
    Gen.k0_pay9 (Gen.k0_pay5 c) (Gen.k0_pay6 a b c) (Gen.k0_pay7 a) (Gen.k0_pay8 b) = pair (band a) (band b) (band c) := rfl
theorem store1_eq (a b c : Vec F S1024x128 .bf16) :
    Gen.k0_pay15 (Gen.k0_pay10 a) (Gen.k0_pay11 b) (Gen.k0_pay12 c) (Gen.k0_pay13 c) (Gen.k0_pay14 a b) = pair (band a) (band b) (band c) := rfl
theorem store2_eq (a b c : Vec F S1024x128 .bf16) :
    Gen.k0_pay22 (Gen.k0_pay16 a) (Gen.k0_pay17 b) (Gen.k0_pay18 c) (Gen.k0_pay19 c) (Gen.k0_pay20 a b) Gen.k0_pay21
      = pair (band a) (band b) (band c) := rfl
theorem store3_eq (a b c : Vec F S1024x128 .bf16) :
    Gen.k0_pay23 a b c = pair (band a) (band b) (band c) := rfl

end Defs

section AtIdeal
variable [Facts]

theorem half0_apply (x : FVec Ideal S16x64x128 .bf16) (b : Fin 16) (i e : Fin 64) :
    half0 x (ix3 b i e) = x (ix3 b i (⟨e.val, by omega⟩ : Fin 128)) := by
  unfold half0
  refine extractStridedSlice_apply _ x slices_S16x64x128_o0_0_0_S16x64x64 (ix3 b i e) _ fun a => ?_
  match a with
  | ⟨0, _⟩ => show b.val = 0 + b.val; omega
  | ⟨1, _⟩ => show i.val = 0 + i.val; omega
  | ⟨2, _⟩ => show e.val = 0 + e.val; omega

theorem half1_apply (x : FVec Ideal S16x64x128 .bf16) (b : Fin 16) (i e : Fin 64) :
    half1 x (ix3 b i e) = x (ix3 b i (⟨64 + e.val, by omega⟩ : Fin 128)) := by
  unfold half1
  refine extractStridedSlice_apply _ x slices_S16x64x128_o0_0_64_S16x64x64 (ix3 b i e) _ fun a => ?_
  match a with
  | ⟨0, _⟩ => show b.val = 0 + b.val; omega
  | ⟨1, _⟩ => show i.val = 0 + i.val; omega
  | ⟨2, _⟩ => show 64 + e.val = 64 + e.val; rfl

/-- The first 64 columns of a pair are the first head. -/
theorem pair_apply_left (qp kp vp : FVec Ideal S16x64x128 .bf16) (b : Fin 16) (i e : Fin 64) :
    pair qp kp vp (ix3 b i (⟨e.val, by omega⟩ : Fin 128))
      = Cert.Attn.out (fun i e => qp (ix3 b i (⟨e.val, by omega⟩ : Fin 128)))
          (fun j e => kp (ix3 b j (⟨e.val, by omega⟩ : Fin 128)))
          (fun j e => vp (ix3 b j (⟨e.val, by omega⟩ : Fin 128))) i e := by
  unfold pair
  rw [shapeCast_self]
  refine (concatenate_pair_apply_left (t := S16x64x128) (s₁ := S16x64x64) (s₂ := S16x64x64) (2 : Fin 3) _ _ concatenates_S16x64x64_S16x64x64_S16x64x128_d2
    (ix3 b i (⟨e.val, by omega⟩ : Fin 128)) rfl (ix3 b i e) fun a => ?_).trans ?_
  · match a with
    | ⟨0, _⟩ => rfl
    | ⟨1, _⟩ => rfl
    | ⟨2, _⟩ => rfl
  · rw [head_apply]
    simp only [half0_apply]

/-- The last 64 columns of a pair are the second head. -/
theorem pair_apply_right (qp kp vp : FVec Ideal S16x64x128 .bf16) (b : Fin 16) (i e : Fin 64) :
    pair qp kp vp (ix3 b i (⟨64 + e.val, by omega⟩ : Fin 128))
      = Cert.Attn.out (fun i e => qp (ix3 b i (⟨64 + e.val, by omega⟩ : Fin 128)))
          (fun j e => kp (ix3 b j (⟨64 + e.val, by omega⟩ : Fin 128)))
          (fun j e => vp (ix3 b j (⟨64 + e.val, by omega⟩ : Fin 128))) i e := by
  unfold pair
  rw [shapeCast_self]
  refine (concatenate_pair_apply_right (t := S16x64x128) (s₁ := S16x64x64) (s₂ := S16x64x64) (2 : Fin 3) _ _ concatenates_S16x64x64_S16x64x64_S16x64x128_d2
    (ix3 b i (⟨64 + e.val, by omega⟩ : Fin 128)) rfl rfl (ix3 b i e) (fun a ha => ?_) ?_).trans ?_
  · match a with
    | ⟨0, _⟩ => rfl
    | ⟨1, _⟩ => rfl
    | ⟨2, _⟩ => exact absurd rfl ha
  · show e.val + 64 = 64 + e.val
    omega
  · rw [head_apply]
    simp only [half1_apply]

end AtIdeal

end Cert.KernelIdeal.Pair

end
-- ==== Proof.LibPlainProduct.lean ====
/-
  A plain matrix product read at an entry.

  For the dimension numbers of an M×K by K×N product (left operand contracted on its columns, right operand on
  its rows, no batch axis), the vector unit's product into a zero accumulator and the host's general dot
  product, read at the ideal values at row `p` and column `c`, are both the sum over `k : Fin K` of
  `l (p, k) · r (k, c)`: the contraction's one-axis index set is re-indexed by its coordinate, and the two
  operand indices at an output index are computed axis by axis.
-/
import Idealize.ShloMosaic.PureOps.Ideal.Laws
import Idealize.ShloMosaic.Lib.ValueIdx

noncomputable section

open scoped BigOperators

namespace Idealize.ShloMosaic.PlainProduct

open Idealize.ShloMosaic Idealize.ShloMosaic.ValueIdx

variable {M K N : Nat}

/-- The left operand's row at an output index is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column is the contraction's coordinate. -/
theorem lhs_col (i : (⟨2, ![M, N]⟩ : Shape).Idx) (q : (DotDims.plain M K N).contr.Idx) :
    ((DotDims.plain M K N).lhsIdx i q 1).val = (q ⟨0, (DotDims.plain M K N).rank_contr ▸ Nat.one_pos⟩).val :=
  (DotDims.plain M K N).lhsIdx_val_of_single rfl i q

/-- The right operand's row is the contraction's coordinate. -/
theorem rhs_row (i : (⟨2, ![M, N]⟩ : Shape).Idx) (q : (DotDims.plain M K N).contr.Idx) :
    ((DotDims.plain M K N).rhsIdx i q 0).val = (q ⟨0, (DotDims.plain M K N).rank_contr ▸ Nat.one_pos⟩).val :=
  (DotDims.plain M K N).rhsIdx_val_of_single rfl i q

/-- The right operand's column at an output index is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum at entry `(p, c)` is the sum over `k` of `l (p, k) · r (k, c)`. -/
theorem sum_contr (l : (⟨2, ![M, K]⟩ : Shape).Idx → EReal) (r : (⟨2, ![K, N]⟩ : Shape).Idx → EReal) (p : Fin M) (c : Fin N) :
    ∑ k : (DotDims.plain M K N).contr.Idx,
        l ((DotDims.plain M K N).lhsIdx (ix2 p c) k) * r ((DotDims.plain M K N).rhsIdx (ix2 p c) k)
      = ∑ k : Fin K, l (ix2 p k) * r (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p c) ((contrEquiv1 (DotDims.plain M K N) K rfl rfl).symm k) = ix2 k c :=
    funext fun a => Fin.ext (by
      match a with
      | ⟨0, _⟩ => exact (rhs_row _ _).trans hk
      | ⟨1, _⟩ => exact rhs_col _ _)
  rw [el, er]

/-- The vector unit's product into a zero accumulator at entry `(p, c)`. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ k : Fin K, l (ix2 p k) * r (ix2 k c) := by
  subst hd
  simp only [matmul]
  rw [Ideal.matmul_constant_zero_apply]
  exact sum_contr l r p c

/-- The host's general dot product at entry `(p, c)`. -/
theorem dotGeneral_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    (Host.dotGeneral d prec l r : FVec Ideal ⟨2, ![M, N]⟩ .f32) (ix2 p c) = ∑ k : Fin K, l (ix2 p k) * r (ix2 k c) := by
  subst hd
  simp only [Host.dotGeneral]
  rw [Ideal.dotGeneral_apply]
  exact sum_contr l r p c

end Idealize.ShloMosaic.PlainProduct

end
-- ==== Proof.BodyValue.lean ====
/-
  What one grid step leaves in the output block, and what that block holds entry by entry.

  A step takes 16 windows (a block [16, 64, 512] of the input rows), projects their 1024 rows to 1536 columns, keeps
  the projection in a scratch array, computes the eight heads two at a time from 128-column bands of that array
  (queries from columns 0-511, keys from 512-1023, values from 1024-1535), writes each pair's output into its 128
  columns of a second scratch array [16, 64, 512], and finally projects that array's 1024 rows with the output
  weights and adds the bias. Read at window `b`, token `i` and column `dd`, the block is the attention result of
  window `b` (`Cert.Attn.resAt`) over the block's rows and the three parameter blocks.
-/
import proofs.«120152_j50182397886562_2_alg».proof.Proof.PairKernel
import proofs.«120152_j50182397886562_2_alg».proof.Proof.LibPlainProduct
import proofs.«120152_j50182397886562_2_alg».proof.Proof.Gen.KernelIdeal.Frame
import Idealize.ShloMosaic.Lib.Pipeline.Value
import Idealize.ShloMosaic.Lib.ValueLayout
import Idealize.ShloMosaic.Lib.Tactic

set_option maxRecDepth 16384

noncomputable section

open scoped BigOperators
open Idealize.ShloMosaic Idealize.ShloMosaic.TcCoe Idealize.ShloMosaic.ValueIdx Idealize.SL.Sem

namespace Cert.KernelIdeal.Body

open Cert.KernelIdeal Cert.KernelIdeal.Facts₀ Cert.KernelIdeal.Head Cert.KernelIdeal.Pair

section Defs
variable {F : FTy → Type} [FloatOps F] [Facts]

/-- The 128 columns from column `o` of a [1024, 1536] array, as [16, 64, 128]. -/
def bnd (Z : S1024x1536.Idx → F .bf16) (o : Nat)
    (inb : ∀ a, (![0, o] : Fin 2 → Nat) a + S1024x128.size a ≤ S1024x1536.size a) : FVec F S16x64x128 .bf16 :=
  band (View.ld (Val := Elt F) (e' := .bf16) Z (Rect.unit (s := S1024x1536) ![0, o] S1024x128.size inb))

/-- The four column blocks the heads' outputs are written to, last written first. -/
def accL (Z : S1024x1536.Idx → F .bf16) : List (View.Piece (Elt F) S16x64x512 .f32) :=
  [⟨Rect.unit (s := S16x64x512) ![0, 0, 384] S16x64x128.size inb_S16x64x512_S16x64x128_0_0_384,
      pair (bnd Z 384 inb_S1024x1536_S1024x128_0_384) (bnd Z 896 inb_S1024x1536_S1024x128_0_896) (bnd Z 1408 inb_S1024x1536_S1024x128_0_1408)⟩,
   ⟨Rect.unit (s := S16x64x512) ![0, 0, 256] S16x64x128.size inb_S16x64x512_S16x64x128_0_0_256,
      pair (bnd Z 256 inb_S1024x1536_S1024x128_0_256) (bnd Z 768 inb_S1024x1536_S1024x128_0_768) (bnd Z 1280 inb_S1024x1536_S1024x128_0_1280)⟩,
   ⟨Rect.unit (s := S16x64x512) ![0, 0, 128] S16x64x128.size inb_S16x64x512_S16x64x128_0_0_128,
      pair (bnd Z 128 inb_S1024x1536_S1024x128_0_128) (bnd Z 640 inb_S1024x1536_S1024x128_0_640) (bnd Z 1152 inb_S1024x1536_S1024x128_0_1152)⟩,
   ⟨Rect.unit (s := S16x64x512) ![0, 0, 0] S16x64x128.size inb_S16x64x512_S16x64x128_0_0_0,
      pair (bnd Z 0 inb_S1024x1536_S1024x128_0_0) (bnd Z 512 inb_S1024x1536_S1024x128_0_512) (bnd Z 1024 inb_S1024x1536_S1024x128_0_1024)⟩]

/-- The step's output block as one function of its four input blocks. -/
def body (x0 : Vec F S16x64x512 .f32) (x1 : Vec F S512x1536 .bf16) (x2 : Vec F S512x512 .bf16) (x3 : Vec F S1x512 .f32) :
    FVec F S16x64x512 .f32 :=
  Gen.k0_pay1 (View.canon (accL (Gen.k0_pay2 x0 x1))) x2 x3

theorem hz2 : (![0, 0] : Fin 2 → Nat) = fun _ => 0 := funext fun a => by fin_cases a <;> rfl
theorem hz3 : (![0, 0, 0] : Fin 3 → Nat) = fun _ => 0 := funext fun a => by fin_cases a <;> rfl

/-- A load of a rectangle after one store of the whole array reads the stored value through the rectangle. -/
theorem readCov_single_whole {Val : EltTy → Type} [∀ e, Nonempty (Val e)] {sig : RefSig} {κ : Kind} {sp : Space} {S : Shape}
    {e : EltTy} (v : View sig κ sp S e) {off : Fin S.rank → Nat} (h : off = fun _ => 0)
    (inb : ∀ a, off a + S.size a ≤ S.size a) (w : S.Idx → Val e) (r : Rect S) :
    v.readCov [(⟨Rect.unit off S.size inb, w⟩ : View.Piece Val S e)] r.toLoadRect = View.ld w r := by
  rw [View.readCov_eq_canon', View.canon_unit_zero h]

/-- A load of the whole array after any stores reads what the stores left. -/
theorem readCov_whole {Val : EltTy → Type} [∀ e, Nonempty (Val e)] {sig : RefSig} {κ : Kind} {sp : Space} {S : Shape}
    {e : EltTy} (v : View sig κ sp S e) (L : List (View.Piece Val S e)) {off : Fin S.rank → Nat} (h : off = fun _ => 0)
    (inb : ∀ a, off a + S.size a ≤ S.size a) :
    v.readCov L (Rect.unit off S.size inb).toLoadRect = View.canon L := by
  rw [View.readCov_eq_canon']
  exact View.ld_unit_zero h inb _

/-- What the run leaves in the output's buffer is that function of the blocks. -/
theorem out_eq (c : Dev nD) (i : grid0.Coords) (arg1 : Memref sig .tc .vmem S16x64x512 .f32) (harg1 : arg1.IsWhole) (arg2 : Memref sig .tc .vmem S512x1536 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S16x64x512 .f32) (harg5 : arg5.IsWhole) (arg6 : Memref sig .tc .vmem S1024x1536 .bf16) (harg6 : arg6.IsWhole) (arg7 : Memref sig .tc .vmem S16x64x512 .f32) (harg7 : arg7.IsWhole)
    (x0 : Vec F S16x64x512 .f32) (x1 : Vec F S512x1536 .bf16) (x2 : Vec F S512x512 .bf16) (x3 : Vec F S1x512 .f32) :
    Gen.out0_A_4 c i arg1 harg1 arg2 harg2 arg3 harg3 arg4 harg4 arg5 harg5 arg6 harg6 arg7 harg7 x0 x1 x2 x3 = body x0 x1 x2 x3 := by
  unfold Gen.out0_A_4
  rw [View.read_writes_eq_canon _ _ _ (Gen.cover0_A_4 c i arg1 harg1 arg2 harg2 arg3 harg3 arg4 harg4 arg5 harg5 arg6 harg6 arg7 harg7 x0 x1 x2 x3)]
  unfold Gen.kernelRun0_A
  dsimp only
  sl_unfold_words
  rw [View.canon_unit_zero hz3]
  simp only [View.readAt_eq_ld, harg1.read_unread, harg2.read_unread, harg3.read_unread, harg4.read_unread,
    View.ld_unit_zero (S := S16x64x512) hz3, View.ld_unit_zero (S := S512x1536) hz2,
    View.ld_unit_zero (S := S512x512) hz2, View.ld_unit_zero (S := S1x512) hz2]
  simp only [readCov_single_whole (S := S1024x1536) _ hz2, readCov_whole (S := S16x64x512) _ _ hz3, store0_eq, store1_eq,
    store2_eq, store3_eq]
  rfl

end Defs

section AtIdeal
variable [Facts]

/-- The projection of row `64 b + i` of the block at column `dc`: window `b`'s row `i` against row `dc` of the weights
    (the staged weight block is the weights transposed). -/
theorem proj_apply (x0 : Vec Ideal S16x64x512 .f32) (x1 : Vec Ideal S512x1536 .bf16) (b : Fin 16) (i : Fin 64) (dc : Fin 1536) :
    Gen.k0_pay2 x0 x1 (ix2 (⟨64 * b.val + i.val, by omega⟩ : Fin 1024) dc)
      = Cert.Attn.qkvAt (fun i c => x0 (ix3 b i c)) (fun dc c => x1 (ix2 c dc)) i dc := by
  unfold Gen.k0_pay2 Cert.Attn.qkvAt
  rw [shapeCast_self, truncf_apply]
  refine (PlainProduct.matmul_zero_apply _ rfl none _ _ _ dc).trans ?_
  refine Finset.sum_congr rfl fun c _ => ?_
  rw [truncf_apply, shapeCast_self, shapeCast_self]
  refine congrArg (· * _) ?_
  refine shapeCast_apply x0 shapeCasts_S16x64x512_S1024x512 _ (ix3 b i c) ?_
  rw [Shape.rowMajor_val_three, Shape.rowMajor_val_two]
  show (b.val * 64 + i.val) * 512 + c.val = (64 * b.val + i.val) * 512 + c.val
  omega

/-- A band read at window `b`, token `i`, column `c'`: the array at row `64 b + i`, column `o + c'`. -/
theorem bnd_apply (Z : S1024x1536.Idx → Ideal .bf16) (o : Nat)
    (inb : ∀ a, (![0, o] : Fin 2 → Nat) a + S1024x128.size a ≤ S1024x1536.size a) (ho : o + 128 ≤ 1536)
    (b : Fin 16) (i : Fin 64) (c' : Fin 128) :
    bnd Z o inb (ix3 b i c')
      = Z (ix2 (⟨64 * b.val + i.val, by omega⟩ : Fin 1024) (⟨o + c'.val, by omega⟩ : Fin 1536)) := by
  unfold bnd band
  refine (shapeCast_apply _ shapeCasts_S1024x128_S16x64x128 (ix3 b i c')
    (ix2 (⟨64 * b.val + i.val, by omega⟩ : Fin 1024) c') ?_).trans ?_
  · rw [Shape.rowMajor_val_two, Shape.rowMajor_val_three]
    show (64 * b.val + i.val) * 128 + c'.val = (b.val * 64 + i.val) * 128 + c'.val
    omega
  · refine congrArg Z (funext fun a => Fin.ext ?_)
    match a with
    | ⟨0, _⟩ => show 0 + 1 * (64 * b.val + i.val) = 64 * b.val + i.val; omega
    | ⟨1, _⟩ => show o + 1 * c'.val = o + c'.val; omega

theorem out_congr {q q' k k' v v' : Fin 64 → Fin 64 → EReal} {e e' : Fin 64} (hq : q = q') (hk : k = k') (hv : v = v')
    (he : e = e') (i : Fin 64) : Cert.Attn.out q k v i e = Cert.Attn.out q' k' v' i e' := by
  subst hq hk hv he; rfl

/-- A pair computed from the bands at columns `o`, `512 + o`, `1024 + o` of the projection (`o` a multiple of 128)
    holds, at window `b`, token `i` and a column `e` of its first 64, the attention output of window `b` at column
    `o + e` of the 512: head `o / 64`. -/
theorem pair_band_left (Z : S1024x1536.Idx → Ideal .bf16) (X : Fin 16 → Fin 64 → Fin 512 → EReal)
    (W : Fin 1536 → Fin 512 → EReal)
    (hZ : ∀ (b : Fin 16) (i : Fin 64) (dc : Fin 1536),
      Z (ix2 (⟨64 * b.val + i.val, by omega⟩ : Fin 1024) dc) = Cert.Attn.qkvAt (X b) W i dc)
    (o : Nat) (hm : o % 128 = 0) (ho : o + 128 ≤ 512)
    (inbq : ∀ a, (![0, o] : Fin 2 → Nat) a + S1024x128.size a ≤ S1024x1536.size a)
    (inbk : ∀ a, (![0, 512 + o] : Fin 2 → Nat) a + S1024x128.size a ≤ S1024x1536.size a)
    (inbv : ∀ a, (![0, 1024 + o] : Fin 2 → Nat) a + S1024x128.size a ≤ S1024x1536.size a)
    (b : Fin 16) (i : Fin 64) (e : Fin 64) :
    pair (bnd Z o inbq) (bnd Z (512 + o) inbk) (bnd Z (1024 + o) inbv) (ix3 b i (⟨e.val, by omega⟩ : Fin 128))
      = Cert.Attn.attnAt (X b) W i (⟨o + e.val, by omega⟩ : Fin 512) := by
  unfold Cert.Attn.attnAt
  rw [pair_apply_left]
  refine out_congr ?_ ?_ ?_ (Fin.ext (by show e.val = (o + e.val) % 64; omega)) i
  all_goals
    funext i' e'
    rw [bnd_apply _ _ _ (by omega), hZ]
    unfold Cert.Attn.part
    refine congrArg (Cert.Attn.qkvAt (X b) W i') (Fin.ext ?_)
    show _ = 512 * _ + 64 * ((o + e.val) / 64) + e'.val
    simp only []
    omega

/-- At a column `64 + e` of its last 64: column `o + 64 + e` of the 512, head `o / 64 + 1`. -/
theorem pair_band_right (Z : S1024x1536.Idx → Ideal .bf16) (X : Fin 16 → Fin 64 → Fin 512 → EReal)
    (W : Fin 1536 → Fin 512 → EReal)
    (hZ : ∀ (b : Fin 16) (i : Fin 64) (dc : Fin 1536),
      Z (ix2 (⟨64 * b.val + i.val, by omega⟩ : Fin 1024) dc) = Cert.Attn.qkvAt (X b) W i dc)
    (o : Nat) (hm : o % 128 = 0) (ho : o + 128 ≤ 512)
    (inbq : ∀ a, (![0, o] : Fin 2 → Nat) a + S1024x128.size a ≤ S1024x1536.size a)
    (inbk : ∀ a, (![0, 512 + o] : Fin 2 → Nat) a + S1024x128.size a ≤ S1024x1536.size a)
    (inbv : ∀ a, (![0, 1024 + o] : Fin 2 → Nat) a + S1024x128.size a ≤ S1024x1536.size a)
    (b : Fin 16) (i : Fin 64) (e : Fin 64) :
    pair (bnd Z o inbq) (bnd Z (512 + o) inbk) (bnd Z (1024 + o) inbv) (ix3 b i (⟨64 + e.val, by omega⟩ : Fin 128))
      = Cert.Attn.attnAt (X b) W i (⟨o + (64 + e.val), by omega⟩ : Fin 512) := by
  unfold Cert.Attn.attnAt
  rw [pair_apply_right]
  refine out_congr ?_ ?_ ?_ (Fin.ext (by show e.val = (o + (64 + e.val)) % 64; omega)) i
  all_goals
    funext i' e'
    rw [bnd_apply _ _ _ (by omega), hZ]
    unfold Cert.Attn.part
    refine congrArg (Cert.Attn.qkvAt (X b) W i') (Fin.ext ?_)
    show _ = 512 * _ + 64 * ((o + (64 + e.val)) / 64) + e'.val
    simp only []
    omega

/-- At any column `c'` of the 128. -/
theorem pair_band_apply (Z : S1024x1536.Idx → Ideal .bf16) (X : Fin 16 → Fin 64 → Fin 512 → EReal)
    (W : Fin 1536 → Fin 512 → EReal)
    (hZ : ∀ (b : Fin 16) (i : Fin 64) (dc : Fin 1536),
      Z (ix2 (⟨64 * b.val + i.val, by omega⟩ : Fin 1024) dc) = Cert.Attn.qkvAt (X b) W i dc)
    (o : Nat) (hm : o % 128 = 0) (ho : o + 128 ≤ 512)
    (inbq : ∀ a, (![0, o] : Fin 2 → Nat) a + S1024x128.size a ≤ S1024x1536.size a)
    (inbk : ∀ a, (![0, 512 + o] : Fin 2 → Nat) a + S1024x128.size a ≤ S1024x1536.size a)
    (inbv : ∀ a, (![0, 1024 + o] : Fin 2 → Nat) a + S1024x128.size a ≤ S1024x1536.size a)
    (b : Fin 16) (i : Fin 64) (c' : Fin 128) :
    pair (bnd Z o inbq) (bnd Z (512 + o) inbk) (bnd Z (1024 + o) inbv) (ix3 b i c')
      = Cert.Attn.attnAt (X b) W i (⟨o + c'.val, by omega⟩ : Fin 512) := by
  obtain ⟨cv, hcv⟩ := c'
  by_cases hc : cv < 64
  · exact pair_band_left Z X W hZ o hm ho inbq inbk inbv b i ⟨cv, hc⟩
  · obtain ⟨e, he⟩ : ∃ e : Fin 64, cv = 64 + e.val := ⟨⟨cv - 64, by omega⟩, by show cv = 64 + (cv - 64); omega⟩
    subst he
    exact pair_band_right Z X W hZ o hm ho inbq inbk inbv b i e

theorem attn_congr (X : Fin 16 → Fin 64 → Fin 512 → EReal) (W : Fin 1536 → Fin 512 → EReal) {b b' : Fin 16}
    {i i' : Fin 64} {c c' : Fin 512} (hb : b = b') (hi : i = i') (hc : c = c') :
    Cert.Attn.attnAt (X b) W i c = Cert.Attn.attnAt (X b') W i' c' := by
  subst hb hi hc; rfl

/-- The block's rows, window by window, and the weights by output column. -/
abbrev rowsOf (x0 : Vec Ideal S16x64x512 .f32) : Fin 16 → Fin 64 → Fin 512 → EReal := fun b i c => x0 (ix3 b i c)
abbrev colsOf {n : Nat} (x1 : (⟨2, ![512, n]⟩ : Shape).Idx → EReal) : Fin n → Fin 512 → EReal := fun d c => x1 (ix2 c d)

/-- One store's value is the attention output on the 128 columns it is written to. -/
theorem piece_ok (x0 : Vec Ideal S16x64x512 .f32) (x1 : Vec Ideal S512x1536 .bf16)
    (o : Nat) (hm : o % 128 = 0) (ho : o + 128 ≤ 512)
    (inbA : ∀ a, (![0, 0, o] : Fin 3 → Nat) a + S16x64x128.size a ≤ S16x64x512.size a)
    (inbq : ∀ a, (![0, o] : Fin 2 → Nat) a + S1024x128.size a ≤ S1024x1536.size a)
    (inbk : ∀ a, (![0, 512 + o] : Fin 2 → Nat) a + S1024x128.size a ≤ S1024x1536.size a)
    (inbv : ∀ a, (![0, 1024 + o] : Fin 2 → Nat) a + S1024x128.size a ≤ S1024x1536.size a)
    (x : S16x64x128.Idx) :
    pair (bnd (Gen.k0_pay2 x0 x1) o inbq) (bnd (Gen.k0_pay2 x0 x1) (512 + o) inbk) (bnd (Gen.k0_pay2 x0 x1) (1024 + o) inbv) x
      = (fun y : S16x64x512.Idx => Cert.Attn.attnAt (rowsOf x0 (y 0)) (colsOf x1) (y 1) (y 2))
          ((Rect.unit (s := S16x64x512) ![0, 0, o] S16x64x128.size inbA).emb x) := by
  have hx := eq_ix3 x
  have h := pair_band_apply (Gen.k0_pay2 x0 x1) (rowsOf x0) (colsOf x1) (fun b i dc => proj_apply x0 x1 b i dc)
    o hm ho inbq inbk inbv (x 0) (x 1) (x 2)
  refine ((congrArg _ hx).trans h).trans ?_
  refine attn_congr (rowsOf x0) (colsOf x1) (Fin.ext ?_) (Fin.ext ?_) (Fin.ext ?_)
  · show (x 0).val = 0 + 1 * (x 0).val; omega
  · show (x 1).val = 0 + 1 * (x 1).val; omega
  · show o + (x 2).val = o + 1 * (x 2).val; omega

/-- What the four stores leave in the second scratch array: at window `b`, token `i`, column `c` the attention output of
    window `b`. -/
theorem acc_apply (x0 : Vec Ideal S16x64x512 .f32) (x1 : Vec Ideal S512x1536 .bf16) (y : S16x64x512.Idx) :
    View.canon (accL (Gen.k0_pay2 x0 x1)) y = Cert.Attn.attnAt (rowsOf x0 (y 0)) (colsOf x1) (y 1) (y 2) := by
  refine View.canon_apply_of_pieces (fun y : S16x64x512.Idx => Cert.Attn.attnAt (rowsOf x0 (y 0)) (colsOf x1) (y 1) (y 2))
    (accL (Gen.k0_pay2 x0 x1)) ?_ y (View.cover_of_tiledL (accL (Gen.k0_pay2 x0 x1)) S16x64x128.size (by sl_kernel_rfl) y)
  intro p hp
  simp only [accL, List.mem_cons, List.mem_nil_iff, or_false] at hp
  rcases hp with rfl | rfl | rfl | rfl
  · intro x
    exact piece_ok x0 x1 384 (by decide) (by decide) inb_S16x64x512_S16x64x128_0_0_384 inb_S1024x1536_S1024x128_0_384
      inb_S1024x1536_S1024x128_0_896 inb_S1024x1536_S1024x128_0_1408 x
  · intro x
    exact piece_ok x0 x1 256 (by decide) (by decide) inb_S16x64x512_S16x64x128_0_0_256 inb_S1024x1536_S1024x128_0_256
      inb_S1024x1536_S1024x128_0_768 inb_S1024x1536_S1024x128_0_1280 x
  · intro x
    exact piece_ok x0 x1 128 (by decide) (by decide) inb_S16x64x512_S16x64x128_0_0_128 inb_S1024x1536_S1024x128_0_128
      inb_S1024x1536_S1024x128_0_640 inb_S1024x1536_S1024x128_0_1152 x
  · intro x
    exact piece_ok x0 x1 0 (by decide) (by decide) inb_S16x64x512_S16x64x128_0_0_0 inb_S1024x1536_S1024x128_0_0
      inb_S1024x1536_S1024x128_0_512 inb_S1024x1536_S1024x128_0_1024 x

/-- THE BLOCK at window `b`, token `i`, column `dd`: the attention result of window `b`. -/
theorem body_apply (x0 : Vec Ideal S16x64x512 .f32) (x1 : Vec Ideal S512x1536 .bf16) (x2 : Vec Ideal S512x512 .bf16)
    (x3 : Vec Ideal S1x512 .f32) (b : Fin 16) (i : Fin 64) (dd : Fin 512) :
    body x0 x1 x2 x3 (ix3 b i dd)
      = Cert.Attn.resAt (rowsOf x0 b) (colsOf x1) (colsOf x2) (fun dd => x3 (ix2 (0 : Fin 1) dd)) i dd := by
  unfold body Gen.k0_pay1 Cert.Attn.resAt
  refine (shapeCast_apply _ shapeCasts_S1024x512_S16x64x512 (ix3 b i dd)
    (ix2 (⟨64 * b.val + i.val, by omega⟩ : Fin 1024) dd) ?_).trans ?_
  · rw [Shape.rowMajor_val_two, Shape.rowMajor_val_three]
    show (64 * b.val + i.val) * 512 + dd.val = (b.val * 64 + i.val) * 512 + dd.val
    omega
  rw [addf_apply]
  refine congrArg₂ (· + ·) ?_ ?_
  · refine (PlainProduct.matmul_zero_apply _ rfl none _ _ _ dd).trans ?_
    refine Finset.sum_congr rfl fun c _ => ?_
    rw [truncf_apply, shapeCast_self]
    refine congrArg (· * _) ?_
    refine (shapeCast_apply _ shapeCasts_S16x64x512_S1024x512 _ (ix3 b i c) ?_).trans (acc_apply x0 x1 (ix3 b i c))
    rw [Shape.rowMajor_val_three, Shape.rowMajor_val_two]
    show (b.val * 64 + i.val) * 512 + c.val = (64 * b.val + i.val) * 512 + c.val
    omega
  · rw [shapeCast_self]
    exact broadcastTo_1b_ab_apply x3 broadcasts_S1x512_S1024x512 _ dd

end AtIdeal

end Cert.KernelIdeal.Body

end
-- ==== Proof.KernelValue.lean ====
/-
  What the kernel's program leaves in its result array.

  The program reshapes the input [16, 4096, 512] to 1024 windows [1024, 64, 512], transposes the two weight
  matrices, reshapes the bias to one row, runs the attention step over 64 grid points (point `t` takes windows
  `16 t` to `16 t + 15` and writes the same windows of the result), and reshapes the result back to
  [16, 4096, 512]. Each point's block is the attention result of its windows (`Body.body_apply`); the blocks
  cover the result array; so the array is `Cert.Attn.result` of the reshaped input and the three parameter
  arrays, and the program's result is its reshape.
-/
import proofs.«120152_j50182397886562_2_alg».proof.Proof.BodyValue
import Idealize.ShloMosaic.Lib.Pipeline.Value
import Idealize.ShloMosaic.Lib.ValueLayout
import Idealize.ShloMosaic.Lib.StableHlo.Run
import Idealize.ShloMosaic.Lib.Tactic

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Whole

open Cert.KernelIdeal Cert.KernelIdeal.Gen Cert.KernelIdeal.Body

variable (m : (ℓ : Loc nD τ sig) → Buf (Elt Ideal) ℓ) (ρ : Dev nD → PrngReg)

/-! ## The arrays the region finds -/

/-- The input as 1024 windows. -/
theorem V_v0 (c : Dev nD) : (V m c main_v0 : S1024x64x512.Idx → EReal)
    = shapeCast S1024x64x512 (m ((c : Thread nD τ).loc main_arg0)) shapeCasts_S16x4096x512_S1024x64x512 := by
  show StableHlo.after hostOps0 (fun b => m (c, b)) (Proc.devRef .tc main_v0) = _
  after_results
  rfl

/-- The projection weights, transposed. -/
theorem V_v2 (c : Dev nD) : (V m c main_v2 : S512x1536.Idx → EReal)
    = (truncf .bf16 (transpose S512x1536 [1, 0] (m ((c : Thread nD τ).loc main_arg1)) transposes_S1536x512_S512x1536_1_0)
        bitsLt_bf16_f32 : FVec Ideal S512x1536 .bf16) := by
  show StableHlo.after hostOps0 (fun b => m (c, b)) (Proc.devRef .tc main_v2) = _
  after_results

/-- The output weights, transposed. -/
theorem V_v4 (c : Dev nD) : (V m c main_v4 : S512x512.Idx → EReal)
    = (truncf .bf16 (transpose S512x512 [1, 0] (m ((c : Thread nD τ).loc main_arg2)) transposes_S512x512_S512x512_1_0)
        bitsLt_bf16_f32 : FVec Ideal S512x512 .bf16) := by
  show StableHlo.after hostOps0 (fun b => m (c, b)) (Proc.devRef .tc main_v4) = _
  after_results

/-- The bias as one row. -/
theorem V_v5 (c : Dev nD) : (V m c main_v5 : S1x512.Idx → EReal)
    = shapeCast S1x512 (m ((c : Thread nD τ).loc main_arg3)) shapeCasts_S512_S1x512 := by
  show StableHlo.after hostOps0 (fun b => m (c, b)) (Proc.devRef .tc main_v5) = _
  after_results
  rfl

theorem v2_apply (c : Dev nD) (k : Fin 512) (d : Fin 1536) :
    V m c main_v2 (ix2 k d) = m ((c : Thread nD τ).loc main_arg1) (ix2 d k) := by
  rw [V_v2, truncf_apply]
  exact transpose_ix2_apply _ _ k d

theorem v4_apply (c : Dev nD) (k d : Fin 512) :
    V m c main_v4 (ix2 k d) = m ((c : Thread nD τ).loc main_arg2) (ix2 d k) := by
  rw [V_v4, truncf_apply]
  exact transpose_ix2_apply _ _ k d

theorem v5_apply (c : Dev nD) (d : Fin 512) :
    V m c main_v5 (ix2 (0 : Fin 1) d) = m ((c : Thread nD τ).loc main_arg3) (ix1 d) := by
  rw [V_v5]
  exact shapeCast_a_1a_apply _ _ (0 : Fin 1) d

/-! ## The blocks a grid point is given -/

/-- The windows' index maps over the grid: the rows' and the result's block index is the point, the parameters' is 0. -/
theorem idx_facts : ∀ t : Fin cfg0.N, win0_0.index t (0 : Fin 3) = t.val ∧ win0_0.index t (1 : Fin 3) = 0
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

theorem t_lt (t : Fin cfg0.N) : t.val < 64 := by
  exact lt_of_lt_of_eq t.isLt N_0

/-- The rows' block at point `t`: windows `16 t + b`. -/
theorem iblk0_apply (c : Dev nD) (t : Fin cfg0.N) (b : Fin 16) (i : Fin 64) (cc : Fin 512) :
    iblk m c 0 t (ix3 b i cc)
      = V m c main_v0 (ix3 (⟨16 * t.val + b.val, by have := t_lt t; omega⟩ : Fin 1024) i cc) := by
  obtain ⟨e0, e1, e2, -⟩ := idx_facts t
  show V m c main_v0 (((cfg0.win 0).blk t).view.emb (ix3 b i cc)) = _
  refine congrArg (V m c main_v0) (funext fun a => Fin.ext ?_)
  match a with
  | ⟨0, _⟩ => show win0_0.index t (0 : Fin 3) * 16 + 1 * b.val = 16 * t.val + b.val; omega
  | ⟨1, _⟩ => show win0_0.index t (1 : Fin 3) * 64 + 1 * i.val = i.val; omega
  | ⟨2, _⟩ => show win0_0.index t (2 : Fin 3) * 512 + 1 * cc.val = cc.val; omega

theorem iblk1_apply (c : Dev nD) (t : Fin cfg0.N) (k : Fin 512) (d : Fin 1536) :
    iblk m c 1 t (ix2 k d) = V m c main_v2 (ix2 k d) := by
  obtain ⟨-, -, -, e0, e1, -⟩ := idx_facts t
  show V m c main_v2 (((cfg0.win 1).blk t).view.emb (ix2 k d)) = _
  refine congrArg (V m c main_v2) (funext fun a => Fin.ext ?_)
  match a with
  | ⟨0, _⟩ => show win0_1.index t (0 : Fin 2) * 512 + 1 * k.val = k.val; omega
  | ⟨1, _⟩ => show win0_1.index t (1 : Fin 2) * 1536 + 1 * d.val = d.val; omega

theorem iblk2_apply (c : Dev nD) (t : Fin cfg0.N) (k d : Fin 512) :
    iblk m c 2 t (ix2 k d) = V m c main_v4 (ix2 k d) := by
  obtain ⟨-, -, -, -, -, e0, e1, -⟩ := idx_facts t
  show V m c main_v4 (((cfg0.win 2).blk t).view.emb (ix2 k d)) = _
  refine congrArg (V m c main_v4) (funext fun a => Fin.ext ?_)
  match a with
  | ⟨0, _⟩ => show win0_2.index t (0 : Fin 2) * 512 + 1 * k.val = k.val; omega
  | ⟨1, _⟩ => show win0_2.index t (1 : Fin 2) * 512 + 1 * d.val = d.val; omega

theorem iblk3_apply (c : Dev nD) (t : Fin cfg0.N) (d : Fin 512) :
    iblk m c 3 t (ix2 (0 : Fin 1) d) = V m c main_v5 (ix2 (0 : Fin 1) d) := by
  obtain ⟨-, -, -, -, -, -, -, e0, e1, -⟩ := idx_facts t
  show V m c main_v5 (((cfg0.win 3).blk t).view.emb (ix2 (0 : Fin 1) d)) = _
  refine congrArg (V m c main_v5) (funext fun a => Fin.ext ?_)
  match a with
  | ⟨0, _⟩ => show win0_3.index t (0 : Fin 2) * 1 + 1 * 0 = 0; omega
  | ⟨1, _⟩ => show win0_3.index t (1 : Fin 2) * 512 + 1 * d.val = d.val; omega

/-! ## The result array -/

/-- What the result array [1024, 64, 512] ends holding. -/
abbrev R (c : Dev nD) : S1024x64x512.Idx → EReal :=
  Cert.Attn.result (V m c main_v0) (m ((c : Thread nD τ).loc main_arg1)) (m ((c : Thread nD τ).loc main_arg2))
    (m ((c : Thread nD τ).loc main_arg3))

theorem resAt_congr {X X' : Fin 64 → Fin 512 → EReal} {W W' : Fin 1536 → Fin 512 → EReal}
    {P P' : Fin 512 → Fin 512 → EReal} {B B' : Fin 512 → EReal} (hX : X = X') (hW : W = W') (hP : P = P') (hB : B = B')
    (i : Fin 64) (dd : Fin 512) : Cert.Attn.resAt X W P B i dd = Cert.Attn.resAt X' W' P' B' i dd := by
  subst hX hW hP hB; rfl

/-- The block point `t` computes, at its window `b`, is the result array at window `16 t + b`. -/
theorem block_apply (c : Dev nD) (t : Fin cfg0.N) (b : Fin 16) (i : Fin 64) (dd : Fin 512) :
    body (iblk m c 0 t) (iblk m c 1 t) (iblk m c 2 t) (iblk m c 3 t) (ix3 b i dd)
      = R m c (ix3 (⟨16 * t.val + b.val, by have := t_lt t; omega⟩ : Fin 1024) i dd) := by
  rw [body_apply]
  refine resAt_congr ?_ ?_ ?_ ?_ i dd
  · funext i' c'
    exact iblk0_apply m c t b i' c'
  · funext d k
    exact (iblk1_apply m c t k d).trans (v2_apply m c k d)
  · funext d k
    exact (iblk2_apply m c t k d).trans (v4_apply m c k d)
  · funext d
    exact (iblk3_apply m c t d).trans (v5_apply m c d)

/-- WHAT POINT `t` WRITES BACK is block `t` of that array. -/
theorem flushed_eq (c : Dev nD) (t : Fin cfg0.N) :
    (dats m 0 c).flushed 4 t = ((cfg0.win 4).blk t).view.read (Elt Ideal) (R m c) := by
  show (cfg0.win 4).cut (grid0.coords t) ((dats m 0 c).after 4 t) = _
  rw [after0_4]
  unfold outsAt0
  rw [Body.out_eq]
  obtain ⟨-, -, -, -, -, -, -, -, -, e0, e1, e2⟩ := idx_facts t
  funext y
  show body (iblk m c 0 t) (iblk m c 1 t) (iblk m c 2 t) (iblk m c 3 t) y = R m c (((cfg0.win 4).blk t).view.emb y)
  refine ((congrArg _ (eq_ix3 (n0 := 16) (n1 := 64) (n2 := 512) y)).trans (block_apply m c t (y 0) (y 1) (y 2))).trans
    (congrArg (R m c) (funext fun a => Fin.ext ?_))
  match a with
  | ⟨0, _⟩ => show 16 * t.val + (y 0).val = win0_4.index t (0 : Fin 3) * 16 + 1 * (y 0).val; omega
  | ⟨1, _⟩ => show (y 1).val = win0_4.index t (1 : Fin 3) * 64 + 1 * (y 1).val; omega
  | ⟨2, _⟩ => show (y 2).val = win0_4.index t (2 : Fin 3) * 512 + 1 * (y 2).val; omega

/-- An index of the result array is in point `t`'s block iff each coordinate is in the block's range on its axis. -/
theorem mem_blk (t : Fin cfg0.N) (i : S1024x64x512.Idx) :
    i ∈ ((cfg0.win 4).blk t).view.set ↔ ∀ a : Fin 3, win0_4.index t a * S16x64x512.size a ≤ (i a).val
      ∧ (i a).val < win0_4.index t a * S16x64x512.size a + S16x64x512.size a := by
  show i ∈ ((View.whole main_v6).slice (win0_4.rect t)).set ↔ _
  rw [View.set_slice_whole, Rect.mem_set_unit]
  exact Iff.rfl

/-- Window `w` of the result array is in the block of point `w / 16`. -/
theorem cover (i : S1024x64x512.Idx) :
    ∃ t : Fin cfg0.N, (cfg0.win 4).flush t = true ∧ i ∈ ((cfg0.win 4).blk t).view.set := by
  have h0 : (i 0).val < 1024 := (i 0).isLt
  have h1 : (i 1).val < 64 := (i 1).isLt
  have h2 : (i 2).val < 512 := (i 2).isLt
  have hN : cfg0.N = 64 := N_0
  let t : Fin cfg0.N := ⟨(i 0).val / 16, by rw [hN]; omega⟩
  obtain ⟨-, -, -, -, -, -, -, -, -, e0, e1, e2⟩ := idx_facts t
  have ht : t.val = (i 0).val / 16 := rfl
  refine ⟨t, flush0_4 t, ?_⟩
  rw [mem_blk]
  intro a
  match a with
  | ⟨0, _⟩ =>
    show win0_4.index t (0 : Fin 3) * 16 ≤ (i 0).val ∧ (i 0).val < win0_4.index t (0 : Fin 3) * 16 + 16
    omega
  | ⟨1, _⟩ =>
    show win0_4.index t (1 : Fin 3) * 64 ≤ (i 1).val ∧ (i 1).val < win0_4.index t (1 : Fin 3) * 64 + 64
    omega
  | ⟨2, _⟩ =>
    show win0_4.index t (2 : Fin 3) * 512 ≤ (i 2).val ∧ (i 2).val < win0_4.index t (2 : Fin 3) * 512 + 512
    omega

/-- THE RESULT ARRAY after the region. -/
theorem final (c : Dev nD) : (dats m 0 c).arrAt 4 cfg0.N = R m c :=
  (dats m 0 c).arrAt_eq_of_cover 4 (R m c) (fun t _ => flushed_eq m c t) cover

/-- The program's result: the result array reshaped to [16, 4096, 512]. -/
theorem tail_eq (c : Dev nD) :
    Pipeline.afterTail₀ cfgs (dats m) 0 (V0 m) [hostOps1] c main_v7
      = shapeCast S16x4096x512 (R m c) shapeCasts_S1024x64x512_S16x4096x512 := by
  unfold Pipeline.afterTail₀
  show StableHlo.after hostOps1 _ (Proc.devRef .tc main_v7) = _
  after_results
  have hX : Pipeline.withArrays (cfgs 0).spec c (V0 m c) (fun w => (dats m 0 c).arrAt w (cfgs 0).N)
      (Proc.devRef .tc main_v6) = R m c :=
    (Pipeline.withArrays_arr spec0 launch0.win.arr_inj c _ _ 4).trans (final m c)
  rw [hX]
  rfl

/-! ## The run -/

/-- Every weakly fair execution of the kernel's program terminates with its result at the reshaped attention result
    and its arguments unchanged. -/
theorem run : θ_run defs (onTc (τ := τ) (main (F := Ideal))) ⟨m, fun _ => 0, ρ⟩ (fun r => ∀ c : Dev nD,
      r.2.mem ((c.tc : Thread nD τ).loc main_v7)
        = shapeCast S16x4096x512 (R m c) shapeCasts_S1024x64x512_S16x4096x512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.RefValue.lean ====
/-
  The reference program read against the windowed-attention specification.

  Stage by stage, each intermediate array of the reference is identified, at explicit coordinates (window, head,
  row, column), with the matching function of the specification: the projection and its three thirds, the scaled
  scores, the row maxima, the exponentials, the row sums, the weights, the heads' outputs, the heads laid side by
  side, and the final projection plus bias. The last theorem states the whole array.
-/
import proofs.«120152_j50182397886562_2_alg».proof.Proof.Gen.ReferenceIdeal.Read
import proofs.«120152_j50182397886562_2_alg».proof.Proof.AttnSpec
import Idealize.ShloMosaic.PureOps.Reduce
import Idealize.ShloMosaic.PureOps.Ideal.Laws
import Idealize.ShloMosaic.Lib.ValueIdx
import Idealize.ShloMosaic.Lib.Pipeline.Value

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Attn

section Stages

variable (x0 : (⟨S16x4096x512, .f32⟩ : BufTy).Contents (Elt Ideal)) (x1 : (⟨S1536x512, .f32⟩ : BufTy).Contents (Elt Ideal))
  (x2 : (⟨S512x512, .f32⟩ : BufTy).Contents (Elt Ideal)) (x3 : (⟨S512, .f32⟩ : BufTy).Contents (Elt Ideal))

/-- The rows of window `w`: row `i`, column `c` of the reshaped input. -/
abbrev X (w : Fin 1024) : Fin 64 → Fin 512 → EReal := fun i c => val_main_v0 (F := Ideal) x0 (ix3 w i c)
/-- The projection weights by row and column. -/
abbrev W : Fin 1536 → Fin 512 → EReal := fun dc c => x1 (ix2 dc c)
/-- The output weights by row and column. -/
abbrev P : Fin 512 → Fin 512 → EReal := fun dd c => x2 (ix2 dd c)
/-- The bias by column. -/
abbrev B : Fin 512 → EReal := fun dd => x3 (ix1 dd)

/-! ## The projection -/

/-- The projected array at window `w`, row `i`, column `dc` of the 1536. -/
theorem v1_at (w : Fin 1024) (i : Fin 64) (dc : Fin 1536) :
    val_main_v1 (F := Ideal) x0 x1 (ix3 w i dc) = qkvAt (X x0 w) (W x1) i dc := by
  rw [val_main_v1_apply]
  unfold qkvAt
  refine Finset.sum_congr rfl fun k _ => ?_
  have el : lidx_main_v1 (ix3 w i dc) k = ix3 w i k := by
    funext a; match a with | ⟨0, _⟩ => rfl | ⟨1, _⟩ => rfl | ⟨2, _⟩ => rfl
  have er : ridx_main_v1 (ix3 w i dc) k = ix2 dc k := by
    funext a; match a with | ⟨0, _⟩ => rfl | ⟨1, _⟩ => rfl
  rw [el, er]

/-- The five-axis view of the projection at (window, row, third, head, column) is the projection at column
    `512 s + 64 h + e`. -/
theorem v2_at (w : Fin 1024) (i : Fin 64) (s : Fin 3) (h : Fin 8) (e : Fin 64) :
    val_main_v2 (F := Ideal) x0 x1 (ix5 w i s h e)
      = qkvAt (X x0 w) (W x1) i ⟨512 * s.val + 64 * h.val + e.val, by omega⟩ := by
  rw [val_main_v2_apply, ← v1_at]
  refine congrArg _ ?_
  have hw := w.isLt; have hi := i.isLt; have hs := s.isLt; have hh := h.isLt; have he := e.isLt
  funext a
  match a with
  | ⟨0, _⟩ => exact Fin.ext (by show ((((w.val * 64 + i.val) * 3 + s.val) * 8 + h.val) * 64 + e.val) / 98304 = w.val; omega)
  | ⟨1, _⟩ => exact Fin.ext (by show ((((w.val * 64 + i.val) * 3 + s.val) * 8 + h.val) * 64 + e.val) / 1536 % 64 = i.val; omega)
  | ⟨2, _⟩ => exact Fin.ext (by show ((((w.val * 64 + i.val) * 3 + s.val) * 8 + h.val) * 64 + e.val) % 1536 = 512 * s.val + 64 * h.val + e.val; omega)

/-- The transposed view at (third, window, head, row, column). -/
theorem v3_at (s : Fin 3) (w : Fin 1024) (h : Fin 8) (i e : Fin 64) :
    val_main_v3 (F := Ideal) x0 x1 (ix5 s w h i e)
      = qkvAt (X x0 w) (W x1) i ⟨512 * s.val + 64 * h.val + e.val, by omega⟩ := by
  rw [val_main_v3_apply, ← v2_at]
  refine congrArg _ ?_
  funext a
  match a with | ⟨0, _⟩ => rfl | ⟨1, _⟩ => rfl | ⟨2, _⟩ => rfl | ⟨3, _⟩ => rfl | ⟨4, _⟩ => rfl

/-- A four-axis index of a third, seen with a leading unit axis. -/
theorem unit_idx (w : Fin 1024) (h : Fin 8) (i e : Fin 64) :
    idx_main_v5 (ix4 w h i e) = ix5 (0 : Fin 1) w h i e := by
  have hw := w.isLt; have hi := i.isLt; have hh := h.isLt; have he := e.isLt
  funext a
  match a with
  | ⟨0, _⟩ => rfl
  | ⟨1, _⟩ => exact Fin.ext (by show (((w.val * 8 + h.val) * 64 + i.val) * 64 + e.val) / 32768 % 1024 = w.val; omega)
  | ⟨2, _⟩ => exact Fin.ext (by show (((w.val * 8 + h.val) * 64 + i.val) * 64 + e.val) / 4096 % 8 = h.val; omega)
  | ⟨3, _⟩ => exact Fin.ext (by show (((w.val * 8 + h.val) * 64 + i.val) * 64 + e.val) / 64 % 64 = i.val; omega)
  | ⟨4, _⟩ => exact Fin.ext (by show (((w.val * 8 + h.val) * 64 + i.val) * 64 + e.val) % 64 = e.val; omega)

/-- The queries: third 0 of head `h`. -/
theorem v5_at (w : Fin 1024) (h : Fin 8) (i e : Fin 64) :
    val_main_v5 (F := Ideal) x0 x1 (ix4 w h i e) = part (X x0 w) (W x1) 0 h i e := by
  rw [val_main_v5_apply, val_main_v4_apply, unit_idx]
  have e0 : idx_main_v4 (ix5 (0 : Fin 1) w h i e) = ix5 (0 : Fin 3) w h i e := by
    funext a; match a with | ⟨0, _⟩ => rfl | ⟨1, _⟩ => rfl | ⟨2, _⟩ => rfl | ⟨3, _⟩ => rfl | ⟨4, _⟩ => rfl
  rw [e0, v3_at]
  rfl

/-- The keys: third 1 of head `h`. -/
theorem v7_at (w : Fin 1024) (h : Fin 8) (i e : Fin 64) :
    val_main_v7 (F := Ideal) x0 x1 (ix4 w h i e) = part (X x0 w) (W x1) 1 h i e := by
  rw [val_main_v7_apply, val_main_v6_apply]
  have eu : idx_main_v7 (ix4 w h i e) = ix5 (0 : Fin 1) w h i e := unit_idx w h i e
  have e0 : idx_main_v6 (ix5 (0 : Fin 1) w h i e) = ix5 (1 : Fin 3) w h i e := by
    funext a; match a with | ⟨0, _⟩ => rfl | ⟨1, _⟩ => rfl | ⟨2, _⟩ => rfl | ⟨3, _⟩ => rfl | ⟨4, _⟩ => rfl
  rw [eu, e0, v3_at]
  rfl

/-- The values: third 2 of head `h`. -/
theorem v9_at (w : Fin 1024) (h : Fin 8) (i e : Fin 64) :
    val_main_v9 (F := Ideal) x0 x1 (ix4 w h i e) = part (X x0 w) (W x1) 2 h i e := by
  rw [val_main_v9_apply, val_main_v8_apply]
  have eu : idx_main_v9 (ix4 w h i e) = ix5 (0 : Fin 1) w h i e := unit_idx w h i e
  have e0 : idx_main_v8 (ix5 (0 : Fin 1) w h i e) = ix5 (2 : Fin 3) w h i e := by
    funext a; match a with | ⟨0, _⟩ => rfl | ⟨1, _⟩ => rfl | ⟨2, _⟩ => rfl | ⟨3, _⟩ => rfl | ⟨4, _⟩ => rfl
  rw [eu, e0, v3_at]
  rfl

/-! ## One head of one window -/

/-- The queries, keys and values of head `h` of window `w`. -/
abbrev Q (w : Fin 1024) (h : Fin 8) : Fin 64 → Fin 64 → EReal := part (X x0 w) (W x1) 0 h
abbrev K (w : Fin 1024) (h : Fin 8) : Fin 64 → Fin 64 → EReal := part (X x0 w) (W x1) 1 h
abbrev V (w : Fin 1024) (h : Fin 8) : Fin 64 → Fin 64 → EReal := part (X x0 w) (W x1) 2 h

/-- The scaled scores. -/
theorem v12_at (w : Fin 1024) (h : Fin 8) (i j : Fin 64) :
    val_main_v12 (F := Ideal) x0 x1 (ix4 w h i j) = score (Q x0 x1 w h) (K x0 x1 w h) i j := by
  rw [val_main_v12_apply, val_main_v10_apply, val_main_v11_apply, val_main_cst_apply]
  unfold score
  show (∑ k : Fin 64, _) * Ideal.ofBits .f32 0x3E000000#32 = _
  refine congrArg (· * scale) (Finset.sum_congr rfl fun k _ => ?_)
  have el : lidx_main_v10 (ix4 w h i j) k = ix4 w h i k := by
    funext a; match a with | ⟨0, _⟩ => rfl | ⟨1, _⟩ => rfl | ⟨2, _⟩ => rfl | ⟨3, _⟩ => rfl
  have er : ridx_main_v10 (ix4 w h i j) k = ix4 w h j k := by
    funext a; match a with | ⟨0, _⟩ => rfl | ⟨1, _⟩ => rfl | ⟨2, _⟩ => rfl | ⟨3, _⟩ => rfl
  rw [el, er, v5_at, v7_at]

/-- The reduced index (window, head, row) with column `k` put back. -/
theorem lift_ix3 (hR : S1024x8x64x64.Reduces [3] S1024x8x64) (w : Fin 1024) (h : Fin 8) (i : Fin 64)
    (k : Fin (S1024x8x64x64.size 3)) : hR.lift (ix3 w h i) k = ix4 w h i (⟨k.val, k.isLt⟩ : Fin 64) := by
  funext c; apply Fin.ext
  fin_cases c <;> rfl

/-- The maximum of a row of scores, started from minus infinity. -/
theorem v13_at (w : Fin 1024) (h : Fin 8) (i : Fin 64) :
    val_main_v13 (F := Ideal) x0 x1 (ix3 w h i)
      = (Finset.univ : Finset (Fin 64)).fold max negInf (score (Q x0 x1 w h) (K x0 x1 w h) i) := by
  have hR : S1024x8x64x64.Reduces [3] S1024x8x64 := by decide
  unfold val_main_v13
  rw [Host.reduce_eq_fold_single FloatOps.maximumf _ _ reducesTo_S1024x8x64x64_S1024x8x64_d3 hR h_S_]
  have hf : (val_main_v12 (F := Ideal) x0 x1 ∘ hR.lift (ix3 w h i))
      = fun k : Fin 64 => score (Q x0 x1 w h) (K x0 x1 w h) i k := funext fun k => by
    show val_main_v12 (F := Ideal) x0 x1 (hR.lift (ix3 w h i) k) = _
    rw [lift_ix3 hR w h i k, v12_at]
    rfl
  exact congrArg (fun f => Finset.fold max negInf f (Finset.univ : Finset (Fin 64))) hf

/-- The row maximum as the specification takes it. -/
theorem v15_at (w : Fin 1024) (h : Fin 8) (i : Fin 64) :
    val_main_v15 (F := Ideal) x0 x1 (ix3 w h i) = rowMax (score (Q x0 x1 w h) (K x0 x1 w h)) i := by
  rw [val_main_v15_apply, val_main_v14_apply, val_main_cst_1_apply, v13_at]
  rfl

/-- The exponentials. -/
theorem v19_at (w : Fin 1024) (h : Fin 8) (i j : Fin 64) :
    val_main_v19 (F := Ideal) x0 x1 (ix4 w h i j) = expd (score (Q x0 x1 w h) (K x0 x1 w h)) i j := by
  rw [val_main_v19_apply, val_main_v18_apply, val_main_v17_apply, val_main_v16_apply, v12_at]
  have e0 : idx_main_v16 (idx_main_v17 (ix4 w h i j)) = ix3 w h i := by
    funext a; match a with | ⟨0, _⟩ => rfl | ⟨1, _⟩ => rfl | ⟨2, _⟩ => rfl
  rw [e0, v15_at]
  rfl

/-- The row sums of the exponentials. -/
theorem v20_at (w : Fin 1024) (h : Fin 8) (i : Fin 64) :
    val_main_v20 (F := Ideal) x0 x1 (ix3 w h i) = ∑ j : Fin 64, expd (score (Q x0 x1 w h) (K x0 x1 w h)) i j := by
  rw [val_main_v20_apply, val_main_cst_2_apply]
  show Ideal.ofBits .f32 0x00000000#32 + _ = _
  rw [Ideal.ofBits_zero_f32, zero_add]
  refine Finset.sum_congr rfl fun k _ => ?_
  have e0 : idx_main_v20 (ix3 w h i) k = ix4 w h i k := by
    funext a; match a with | ⟨0, _⟩ => rfl | ⟨1, _⟩ => rfl | ⟨2, _⟩ => rfl | ⟨3, _⟩ => rfl
  rw [e0, v19_at]

/-- The softmax weights. -/
theorem v23_at (w : Fin 1024) (h : Fin 8) (i j : Fin 64) :
    val_main_v23 (F := Ideal) x0 x1 (ix4 w h i j) = prob (score (Q x0 x1 w h) (K x0 x1 w h)) i j := by
  rw [val_main_v23_apply, val_main_v22_apply, val_main_v21_apply, v19_at]
  have e0 : idx_main_v21 (idx_main_v22 (ix4 w h i j)) = ix3 w h i := by
    funext a; match a with | ⟨0, _⟩ => rfl | ⟨1, _⟩ => rfl | ⟨2, _⟩ => rfl
  rw [e0, v20_at]
  rfl

/-- The head's output. -/
theorem v24_at (w : Fin 1024) (h : Fin 8) (i e : Fin 64) :
    val_main_v24 (F := Ideal) x0 x1 (ix4 w h i e) = out (Q x0 x1 w h) (K x0 x1 w h) (V x0 x1 w h) i e := by
  rw [val_main_v24_apply]
  unfold out
  refine Finset.sum_congr rfl fun k _ => ?_
  have el : lidx_main_v24 (ix4 w h i e) k = ix4 w h i k := by
    funext a; match a with | ⟨0, _⟩ => rfl | ⟨1, _⟩ => rfl | ⟨2, _⟩ => rfl | ⟨3, _⟩ => rfl
  have er : ridx_main_v24 (ix4 w h i e) k = ix4 w h k e := by
    funext a; match a with | ⟨0, _⟩ => rfl | ⟨1, _⟩ => rfl | ⟨2, _⟩ => rfl | ⟨3, _⟩ => rfl
  rw [el, er, v23_at, v9_at]

/-! ## The heads side by side, the output projection and the bias -/

/-- The attention output at batch `b`, token `n`, column `c`: window `(4096 b + n) / 64`, row `(4096 b + n) % 64`,
    head `c / 64`, its column `c % 64`. -/
theorem v26_at (b : Fin 16) (n : Fin 4096) (c : Fin 512) :
    val_main_v26 (F := Ideal) x0 x1 (ix3 b n c)
      = attnAt (X x0 ⟨(4096 * b.val + n.val) / 64, by omega⟩) (W x1) ⟨(4096 * b.val + n.val) % 64, by omega⟩ c := by
  rw [val_main_v26_apply, val_main_v25_apply]
  have hb := b.isLt; have hn := n.isLt; have hc := c.isLt
  have e0 : idx_main_v25 (idx_main_v26 (ix3 b n c))
      = ix4 (⟨(4096 * b.val + n.val) / 64, by omega⟩ : Fin 1024) (⟨c.val / 64, by omega⟩ : Fin 8)
          (⟨(4096 * b.val + n.val) % 64, by omega⟩ : Fin 64) (⟨c.val % 64, by omega⟩ : Fin 64) := by
    funext a
    match a with
    | ⟨0, _⟩ => exact Fin.ext (by show ((b.val * 4096 + n.val) * 512 + c.val) / 32768 = (4096 * b.val + n.val) / 64; omega)
    | ⟨1, _⟩ => exact Fin.ext (by show ((b.val * 4096 + n.val) * 512 + c.val) / 64 % 8 = c.val / 64; omega)
    | ⟨2, _⟩ => exact Fin.ext (by show ((b.val * 4096 + n.val) * 512 + c.val) / 512 % 64 = (4096 * b.val + n.val) % 64; omega)
    | ⟨3, _⟩ => exact Fin.ext (by show ((b.val * 4096 + n.val) * 512 + c.val) % 64 = c.val % 64; omega)
  rw [e0, v24_at]
  rfl

/-- The reference's result at batch `b`, token `n`, column `dd`. -/
theorem v30_at (b : Fin 16) (n : Fin 4096) (dd : Fin 512) :
    val_main_v30 (F := Ideal) x0 x1 x2 x3 (ix3 b n dd)
      = resAt (X x0 ⟨(4096 * b.val + n.val) / 64, by omega⟩) (W x1) (P x2) (B x3) ⟨(4096 * b.val + n.val) % 64, by omega⟩ dd := by
  rw [val_main_v30_apply, val_main_v27_apply, val_main_v29_apply, val_main_v28_apply]
  unfold resAt
  show (∑ k : Fin 512, _) + _ = _
  have eb : idx_main_v28 (idx_main_v29 (ix3 b n dd)) = ix1 dd := by
    funext a; match a with | ⟨0, _⟩ => rfl
  rw [eb]
  refine congrArg (· + B x3 dd) (Finset.sum_congr rfl fun k _ => ?_)
  have el : lidx_main_v27 (ix3 b n dd) k = ix3 b n k := by
    funext a; match a with | ⟨0, _⟩ => rfl | ⟨1, _⟩ => rfl | ⟨2, _⟩ => rfl
  have er : ridx_main_v27 (ix3 b n dd) k = ix2 dd k := by
    funext a; match a with | ⟨0, _⟩ => rfl | ⟨1, _⟩ => rfl
  rw [el, er, v26_at]

end Stages

/-! ## The whole array -/

/-- The reference's result is the specification's result over the 1024 windows, seen as [16, 4096, 512]. -/
theorem reference_eq (h : (⟨3, ![1024, 64, 512]⟩ : Shape).ShapeCasts ⟨3, ![16, 4096, 512]⟩)
    (x0 : (⟨S16x4096x512, .f32⟩ : BufTy).Contents (Elt Ideal)) (x1 : (⟨S1536x512, .f32⟩ : BufTy).Contents (Elt Ideal))
    (x2 : (⟨S512x512, .f32⟩ : BufTy).Contents (Elt Ideal)) (x3 : (⟨S512, .f32⟩ : BufTy).Contents (Elt Ideal)) :
    val_main_v30 (F := Ideal) x0 x1 x2 x3
      = shapeCast ⟨3, ![16, 4096, 512]⟩ (Cert.Attn.result (val_main_v0 (F := Ideal) x0) x1 x2 x3) h := by
  funext j
  obtain ⟨b, n, dd, rfl⟩ : ∃ (b : Fin 16) (n : Fin 4096) (dd : Fin 512), j = ix3 b n dd := ⟨j 0, j 1, j 2, eq_ix3 j⟩
  have hb := b.isLt; have hn := n.isLt; have hd := dd.isLt
  have hp : ((⟨3, ![1024, 64, 512]⟩ : Shape).rowMajor
        (ix3 (⟨(4096 * b.val + n.val) / 64, by omega⟩ : Fin 1024) (⟨(4096 * b.val + n.val) % 64, by omega⟩ : Fin 64) dd)).val
      = ((⟨3, ![16, 4096, 512]⟩ : Shape).rowMajor (ix3 b n dd)).val := by
    rw [Shape.rowMajor_val_three, Shape.rowMajor_val_three]
    show ((4096 * b.val + n.val) / 64 * 64 + (4096 * b.val + n.val) % 64) * 512 + dd.val = (b.val * 4096 + n.val) * 512 + dd.val
    omega
  rw [v30_at, shapeCast_apply (Cert.Attn.result (val_main_v0 (F := Ideal) x0) x1 x2 x3) h (ix3 b n dd) _ hp]
  rfl

end Cert.ReferenceIdeal.RefValue

end
-- ==== Proof.lean ====
/-
  The certificate of a windowed multi-head attention kernel against its plain reference.

  Both programs compute, for each of 1024 windows of 64 tokens, the attention of the window with itself in 8 heads
  of width 64, followed by an output projection with bias (`Cert.Attn`, Proof/AttnSpec.lean). The kernel takes the
  windows sixteen at a time, keeps the projected queries, keys and values in a scratch array, computes the heads two
  at a time and projects their outputs; the reference does the same with whole-array operations in another layout.
  At the ideal values both results are the one function `Cert.Attn.result` of the arguments, reshaped to
  [16, 4096, 512]: every operation of one program has its counterpart in the other (a matrix product into a zero
  accumulator and a general dot product are the same sums, a change of float format is the identity, the row maxima
  and row sums are the same folds and sums, and the constants 1/8 and minus infinity are the same words), so no
  law of the extended reals beyond `0 + x = x` is used and the inputs' finiteness is never needed.

  The three frames are the generated ones (the reference's is its run with the result dropped); the idealization
  rewrote nothing, so that claim is trivial; the algebraic claim joins the kernel's run (Proof/KernelValue.lean)
  and the reference's run read at an index (Proof/RefValue.lean).
-/
import proofs.«120152_j50182397886562_2_alg».proof.Defs
import proofs.«120152_j50182397886562_2_alg».proof.Proof.Gen.Kernel
import proofs.«120152_j50182397886562_2_alg».proof.Proof.Gen.Kernel.Skeleton
import proofs.«120152_j50182397886562_2_alg».proof.Proof.Gen.Kernel.Launch
import proofs.«120152_j50182397886562_2_alg».proof.Proof.Gen.Kernel.Points
import proofs.«120152_j50182397886562_2_alg».proof.Proof.Gen.Kernel.Frame
import proofs.«120152_j50182397886562_2_alg».proof.Proof.Gen.KernelIdeal
import proofs.«120152_j50182397886562_2_alg».proof.Proof.Gen.KernelIdeal.Skeleton
import proofs.«120152_j50182397886562_2_alg».proof.Proof.Gen.KernelIdeal.Launch
import proofs.«120152_j50182397886562_2_alg».proof.Proof.Gen.KernelIdeal.Points
import proofs.«120152_j50182397886562_2_alg».proof.Proof.Gen.KernelIdeal.Frame
import proofs.«120152_j50182397886562_2_alg».proof.Proof.Gen.ReferenceIdeal
import proofs.«120152_j50182397886562_2_alg».proof.Proof.Gen.Pre_finite_inputs
import proofs.«120152_j50182397886562_2_alg».proof.Proof.Gen.ReferenceIdeal.Run
import proofs.«120152_j50182397886562_2_alg».proof.Proof.Gen.ReferenceIdeal.Read
import proofs.«120152_j50182397886562_2_alg».proof.Proof.KernelValue
import proofs.«120152_j50182397886562_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the attention result of the arguments, reshaped:
    the kernel's by its run, the reference's by its run read entry by entry. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq,
    Cert.ReferenceIdeal.RefValue.reference_eq Cert.KernelIdeal.Gen.shapeCasts_S1024x64x512_S16x4096x512,
    (hagree c).1, (hagree c).2.1, (hagree c).2.2.1, (hagree c).2.2.2]
  unfold Cert.KernelIdeal.Whole.R
  rw [Cert.KernelIdeal.Whole.V_v0]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
